-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x640000 : Shape := ⟨2, ![2, 640000]⟩
abbrev S640000 : Shape := ⟨1, ![640000]⟩
abbrev S100000 : Shape := ⟨1, ![100000]⟩
abbrev S100x128 : Shape := ⟨2, ![100, 128]⟩
abbrev S128 : Shape := ⟨1, ![128]⟩
abbrev S128x128 : Shape := ⟨2, ![128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S640000 : S_.BroadcastsInDim S640000 (![] : Fin 0 → Fin S640000.rank)
  reducesTo_S640000_S_d0 : S640000.ReducesTo [0] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S3x128 .f32) (main_arg14 : FVec F S128x1 .f32) (main_arg15 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S3x128 .f32) (main_arg11 : FVec F S3x128 .f32) (main_arg12 : FVec F S3x128 .f32) (main_arg13 : FVec F S3x128 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S3x128 .f32) (main_arg11 : FVec F S3x128 .f32) (main_arg12 : FVec F S3x128 .f32) (main_arg13 : FVec F S3x128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x100 .f32) (main_arg1 : IVec S2x640000 32) (main_arg2 : FVec F S640000 .f32) (main_arg3 : IVec S100000 32) (main_arg4 : FVec F S100x128 .f32) (main_arg5 : FVec F S128 .f32) (main_arg6 : FVec F S128x128 .f32) (main_arg7 : FVec F S128 .f32) (main_arg8 : FVec F S128x128 .f32) (main_arg9 : FVec F S128 .f32) (main_arg10 : FVec F S3x128 .f32) (main_arg11 : FVec F S3x128 .f32) (main_arg12 : FVec F S3x128 .f32) (main_arg13 : FVec F S3x128 .f32) (main_arg14 : FVec F S128x1 .f32) (main_arg15 : FVec F S1 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S100x128 .f32 := Host.absf main_arg4
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x100 : Shape := ⟨2, ![100000, 100]⟩
abbrev S2x640000 : Shape := ⟨2, ![2, 640000]⟩
abbrev S640000 : Shape := ⟨1, ![640000]⟩
abbrev S100000 : Shape := ⟨1, ![100000]⟩
abbrev S100x128 : Shape := ⟨2, ![100, 128]⟩
abbrev S128 : Shape := ⟨1, ![128]⟩
abbrev S128x128 : Shape := ⟨2, ![128, 128]⟩
abbrev S3x128 : Shape := ⟨2, ![3, 128]⟩
abbrev S128x1 : Shape := ⟨2, ![128, 1]⟩
abbrev S1 : Shape := ⟨1, ![1]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S1x128 : Shape := ⟨2, ![1, 128]⟩
abbrev S100000x128 : Shape := ⟨2, ![100000, 128]⟩
abbrev S5000x100 : Shape := ⟨2, ![5000, 100]⟩
abbrev S5000x128 : Shape := ⟨2, ![5000, 128]⟩
abbrev S740000x128 : Shape := ⟨2, ![740000, 128]⟩
abbrev S2000x128 : Shape := ⟨2, ![2000, 128]⟩
abbrev S1000 : Shape := ⟨1, ![1000]⟩
abbrev S100000x1 : Shape := ⟨2, ![100000, 1]⟩
abbrev S1000x128 : Shape := ⟨2, ![1000, 128]⟩
abbrev S1000x1 : Shape := ⟨2, ![1000, 1]⟩
abbrev S1x1 : Shape := ⟨2, ![1, 1]⟩

abbrev nBuf : Space → Nat
  | .hbm => 171
  | .vmem => 42
  | .smem => 0
  | _ => 0

abbrev hbmTy0_0 (i : Nat) : BufTy := match i % 128 with
  | 0 => ⟨S100000x100, .f32⟩
  | 1 => ⟨S2x640000, .i32⟩
  | 2 => ⟨S640000, .f32⟩
  | 3 => ⟨S100000, .i32⟩
  | 4 => ⟨S100x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S3x128, .f32⟩
  | 11 => ⟨S3x128, .f32⟩
  | 12 => ⟨S3x128, .f32⟩
  | 13 => ⟨S3x128, .f32⟩
  | 14 => ⟨S128x1, .f32⟩
  | 15 => ⟨S1, .f32⟩
  | 16 => ⟨S100000, .i32⟩
  | 17 => ⟨S1x640000, .i32⟩
  | 18 => ⟨S640000, .i32⟩
  | 19 => ⟨S740000, .i32⟩
  | 20 => ⟨S1x640000, .i32⟩
  | 21 => ⟨S640000, .i32⟩
  | 22 => ⟨S740000, .i32⟩
  | 23 => ⟨S_, .f32⟩
  | 24 => ⟨S100000, .f32⟩
  | 25 => ⟨S740000, .f32⟩
  | 26 => ⟨S_, .f32⟩
  | 27 => ⟨S100000, .f32⟩
  | 28 => ⟨S740000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S740000, .i32⟩
  | 40 => ⟨S740000, .i1⟩
  | 41 => ⟨S_, .i32⟩
  | 42 => ⟨S740000, .i32⟩
  | 43 => ⟨S740000, .i32⟩
  | 44 => ⟨S740000, .i32⟩
  | 45 => ⟨S740000x1, .i32⟩
  | 46 => ⟨S740000, .f32⟩
  | 47 => ⟨S740000, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000, .f32⟩
  | 57 => ⟨S740000, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S100000x128, .f32⟩
  | 67 => ⟨S_, .i32⟩
  | 68 => ⟨S740000, .i32⟩
  | 69 => ⟨S740000, .i1⟩
  | 70 => ⟨S_, .i32⟩
  | 71 => ⟨S740000, .i32⟩
  | 72 => ⟨S740000, .i32⟩
  | 73 => ⟨S740000, .i32⟩
  | 74 => ⟨S740000x1, .i32⟩
  | 75 => ⟨S740000x128, .f32⟩
  | 76 => ⟨S740000x1, .f32⟩
  | 77 => ⟨S740000x128, .f32⟩
  | 78 => ⟨S740000x128, .f32⟩
  | 79 => ⟨S_, .f32⟩
  | 80 => ⟨S100000x128, .f32⟩
  | 81 => ⟨S740000x1, .i32⟩
  | 82 => ⟨S100000x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S100000x128, .f32⟩
  | 98 => ⟨S_, .i32⟩
  | 99 => ⟨S740000, .i32⟩
  | 100 => ⟨S740000, .i1⟩
  | 101 => ⟨S_, .i32⟩
  | 102 => ⟨S740000, .i32⟩
  | 103 => ⟨S740000, .i32⟩
  | 104 => ⟨S740000, .i32⟩
  | 105 => ⟨S740000x1, .i32⟩
  | 106 => ⟨S740000x128, .f32⟩
  | 107 => ⟨S740000x1, .f32⟩
  | 108 => ⟨S740000x128, .f32⟩
  | 109 => ⟨S740000x128, .f32⟩
  | 110 => ⟨S_, .f32⟩
  | 111 => ⟨S100000x128, .f32⟩
  | 112 => ⟨S740000x1, .i32⟩
  | 113 => ⟨S100000x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S100000x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S100000x100, .f32⟩

abbrev hbmTy0_1 (i : Nat) : BufTy := match i % 128 with
  | 0 => ⟨S100000x128, .f32⟩
  | 1 => ⟨S_, .i32⟩
  | 2 => ⟨S740000, .i32⟩
  | 3 => ⟨S740000, .i1⟩
  | 4 => ⟨S_, .i32⟩
  | 5 => ⟨S740000, .i32⟩
  | 6 => ⟨S740000, .i32⟩
  | 7 => ⟨S740000, .i32⟩
  | 8 => ⟨S740000x1, .i32⟩
  | 9 => ⟨S740000x128, .f32⟩
  | 10 => ⟨S740000x1, .f32⟩
  | 11 => ⟨S740000x128, .f32⟩
  | 12 => ⟨S740000x128, .f32⟩
  | 13 => ⟨S_, .f32⟩
  | 14 => ⟨S100000x128, .f32⟩
  | 15 => ⟨S740000x1, .i32⟩
  | 16 => ⟨S100000x128, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S100000x128, .f32⟩
  | 23 => ⟨S_, .f32⟩
  | 24 => ⟨S100000, .f32⟩
  | 25 => ⟨S_, .f32⟩
  | 26 => ⟨S1000, .f32⟩
  | 27 => ⟨S100000x1, .i32⟩
  | 28 => ⟨S1000, .f32⟩
  | 29 => ⟨S_, .f32⟩
  | 30 => ⟨S1000x128, .f32⟩
  | 31 => ⟨S100000x1, .i32⟩
  | 32 => ⟨S1000x128, .f32⟩
  | 33 => ⟨S_, .f32⟩
  | 34 => ⟨S1000, .f32⟩
  | 35 => ⟨S1000, .f32⟩
  | 36 => ⟨S1000x1, .f32⟩
  | 37 => ⟨S1000x128, .f32⟩
  | 38 => ⟨S1000x128, .f32⟩
  | 39 => ⟨S1000x1, .f32⟩
  | 40 => ⟨S1x1, .f32⟩
  | 41 => ⟨S1000x1, .f32⟩
  | 42 => ⟨S1000x1, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x128, .f32⟩
  | .local _ .vmem, ⟨3, _⟩ => ⟨S5000x128, .f32⟩
  | .local _ .vmem, ⟨4, _⟩ => ⟨S5000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_9 : Ref sig .tc := ⟨.hbm, 98, rfl⟩
abbrev main_v69 : Ref sig .tc := ⟨.hbm, 99, rfl⟩
abbrev main_v70 : Ref sig .tc := ⟨.hbm, 100, rfl⟩
abbrev main_c_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_12 : Ref sig .tc := ⟨.hbm, 129, rfl⟩
abbrev main_v97 : Ref sig .tc := ⟨.hbm, 130, rfl⟩
abbrev main_v98 : Ref sig .tc := ⟨.hbm, 131, rfl⟩
abbrev main_c_13 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_14 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_15 : Ref sig .tc := ⟨.hbm, 151, rfl⟩
abbrev main_v116 : Ref sig .tc := ⟨.hbm, 152, rfl⟩
abbrev main_cst_16 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_17 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_18 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  slices_S3x128_S1x128_0_0 : S3x128.Slices ![0, 0] S1x128
  shapeCasts_S1x128_S128 : S1x128.ShapeCasts S128
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S5000x128_S5000x128_0_0 : ∀ a, (![0, 0] : Fin 2 → Nat) a + S5000x128.size a ≤ S5000x128.size a
  h_S5000x128 : 0 < S5000x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128_S1x128_1_0 : S3x128.Slices ![1, 0] S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  slices_S3x128_S1x128_2_0 : S3x128.Slices ![2, 0] S1x128
  bcast_S_S1000 : S_.BroadcastsInDim S1000 (![] : Fin 0 → Fin S1000.rank)
  bcast_S100000_S100000x1_0 : S100000.BroadcastsInDim S100000x1 (![0] : Fin 1 → Fin S100000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x100_S100x128_S5000x128_1_0_0_1_n_n_wf : DotDims.WF S5000x100 S100x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x128_S5000x128_1_0_0_1_n_n_wf : DotDims.WF S5000x128 S128x128 S5000x128 [1] [0] [0] [1] [] []
  scatter_S1000_S100000x1_S100000_n_0_0_1_wf : ScatterDims.WF S1000 S100000x1 S100000 [] [0] [0] 1
  scatter_S1000x128_S100000x1_S100000x128_1_0_0_1_wf : ScatterDims.WF S1000x128 S100000x1 S100000x128 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v87) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v109) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v115) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x100 : Shape := ⟨2, ![100000, 100]⟩
abbrev S2x640000 : Shape := ⟨2, ![2, 640000]⟩
abbrev S640000 : Shape := ⟨1, ![640000]⟩
abbrev S100000 : Shape := ⟨1, ![100000]⟩
abbrev S100x128 : Shape := ⟨2, ![100, 128]⟩
abbrev S128 : Shape := ⟨1, ![128]⟩
abbrev S128x128 : Shape := ⟨2, ![128, 128]⟩
abbrev S3x128 : Shape := ⟨2, ![3, 128]⟩
abbrev S128x1 : Shape := ⟨2, ![128, 1]⟩
abbrev S1 : Shape := ⟨1, ![1]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S1x128 : Shape := ⟨2, ![1, 128]⟩
abbrev S100000x128 : Shape := ⟨2, ![100000, 128]⟩
abbrev S740000x128 : Shape := ⟨2, ![740000, 128]⟩
abbrev S1000 : Shape := ⟨1, ![1000]⟩
abbrev S100000x1 : Shape := ⟨2, ![100000, 1]⟩
abbrev S1000x128 : Shape := ⟨2, ![1000, 128]⟩
abbrev S1000x1 : Shape := ⟨2, ![1000, 1]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S100000x100, .f32⟩
  | 1 => ⟨S2x640000, .i32⟩
  | 2 => ⟨S640000, .f32⟩
  | 3 => ⟨S100000, .i32⟩
  | 4 => ⟨S100x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S3x128, .f32⟩
  | 11 => ⟨S3x128, .f32⟩
  | 12 => ⟨S3x128, .f32⟩
  | 13 => ⟨S3x128, .f32⟩
  | 14 => ⟨S128x1, .f32⟩
  | 15 => ⟨S1, .f32⟩
  | 16 => ⟨S100000, .i32⟩
  | 17 => ⟨S1x640000, .i32⟩
  | 18 => ⟨S640000, .i32⟩
  | 19 => ⟨S740000, .i32⟩
  | 20 => ⟨S1x640000, .i32⟩
  | 21 => ⟨S640000, .i32⟩
  | 22 => ⟨S740000, .i32⟩
  | 23 => ⟨S_, .f32⟩
  | 24 => ⟨S100000, .f32⟩
  | 25 => ⟨S740000, .f32⟩
  | 26 => ⟨S_, .f32⟩
  | 27 => ⟨S100000, .f32⟩
  | 28 => ⟨S740000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S740000, .i32⟩
  | 40 => ⟨S740000, .i1⟩
  | 41 => ⟨S_, .i32⟩
  | 42 => ⟨S740000, .i32⟩
  | 43 => ⟨S740000, .i32⟩
  | 44 => ⟨S740000, .i32⟩
  | 45 => ⟨S740000x1, .i32⟩
  | 46 => ⟨S740000, .f32⟩
  | 47 => ⟨S740000, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000, .f32⟩
  | 57 => ⟨S740000, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S100000x128, .f32⟩
  | 67 => ⟨S_, .i32⟩
  | 68 => ⟨S740000, .i32⟩
  | 69 => ⟨S740000, .i1⟩
  | 70 => ⟨S_, .i32⟩
  | 71 => ⟨S740000, .i32⟩
  | 72 => ⟨S740000, .i32⟩
  | 73 => ⟨S740000, .i32⟩
  | 74 => ⟨S740000x1, .i32⟩
  | 75 => ⟨S740000x128, .f32⟩
  | 76 => ⟨S740000x1, .f32⟩
  | 77 => ⟨S740000x128, .f32⟩
  | 78 => ⟨S740000x128, .f32⟩
  | 79 => ⟨S_, .f32⟩
  | 80 => ⟨S100000x128, .f32⟩
  | 81 => ⟨S740000x1, .i32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S100000x128, .f32⟩
  | 114 => ⟨S_, .i32⟩
  | 115 => ⟨S740000, .i32⟩
  | 116 => ⟨S740000, .i1⟩
  | 117 => ⟨S_, .i32⟩
  | 118 => ⟨S740000, .i32⟩
  | 119 => ⟨S740000, .i32⟩
  | 120 => ⟨S740000, .i32⟩
  | 121 => ⟨S740000x1, .i32⟩
  | 122 => ⟨S740000x128, .f32⟩
  | 123 => ⟨S740000x1, .f32⟩
  | 124 => ⟨S740000x128, .f32⟩
  | 125 => ⟨S740000x128, .f32⟩
  | 126 => ⟨S_, .f32⟩
  | 127 => ⟨S100000x128, .f32⟩
  | _ => ⟨S100000x100, .f32⟩

abbrev hbmTy0_1 (i : Nat) : BufTy := match i % 128 with
  | 0 => ⟨S740000x1, .i32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S128, .f32⟩
  | 32 => ⟨S100000x128, .f32⟩
  | 33 => ⟨S_, .i32⟩
  | 34 => ⟨S740000, .i32⟩
  | 35 => ⟨S740000, .i1⟩
  | 36 => ⟨S_, .i32⟩
  | 37 => ⟨S740000, .i32⟩
  | 38 => ⟨S740000, .i32⟩
  | 39 => ⟨S740000, .i32⟩
  | 40 => ⟨S740000x1, .i32⟩
  | 41 => ⟨S740000x128, .f32⟩
  | 42 => ⟨S740000x1, .f32⟩
  | 43 => ⟨S740000x128, .f32⟩
  | 44 => ⟨S740000x128, .f32⟩
  | 45 => ⟨S_, .f32⟩
  | 46 => ⟨S100000x128, .f32⟩
  | 47 => ⟨S740000x1, .i32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000, .f32⟩
  | 73 => ⟨S_, .f32⟩
  | 74 => ⟨S1000, .f32⟩
  | 75 => ⟨S100000x1, .i32⟩
  | 76 => ⟨S1000, .f32⟩
  | 77 => ⟨S_, .f32⟩
  | 78 => ⟨S1000x128, .f32⟩
  | 79 => ⟨S100000x1, .i32⟩
  | 80 => ⟨S1000x128, .f32⟩
  | 81 => ⟨S_, .f32⟩
  | 82 => ⟨S1000, .f32⟩
  | 83 => ⟨S1000, .f32⟩
  | 84 => ⟨S1000x1, .f32⟩
  | 85 => ⟨S1000x128, .f32⟩
  | 86 => ⟨S1000x128, .f32⟩
  | 87 => ⟨S1000x1, .f32⟩
  | 88 => ⟨S1x1, .f32⟩
  | 89 => ⟨S1000x1, .f32⟩
  | 90 => ⟨S1000x1, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_10 : Ref sig .tc := ⟨.hbm, 114, rfl⟩
abbrev main_v82 : Ref sig .tc := ⟨.hbm, 115, rfl⟩
abbrev main_v83 : Ref sig .tc := ⟨.hbm, 116, rfl⟩
abbrev main_c_11 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_12 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_13 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call2_cst : Ref sig .tc := ⟨.hbm, 149, rfl⟩
abbrev main_call2_v0 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_14 : Ref sig .tc := ⟨.hbm, 161, rfl⟩
abbrev main_v123 : Ref sig .tc := ⟨.hbm, 162, rfl⟩
abbrev main_v124 : Ref sig .tc := ⟨.hbm, 163, rfl⟩
abbrev main_c_15 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_16 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_17 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_call3_cst : Ref sig .tc := ⟨.hbm, 196, rfl⟩
abbrev main_call3_v0 : Ref sig .tc := ⟨.hbm, 197, rfl⟩
abbrev main_v154 : Ref sig .tc := ⟨.hbm, 198, rfl⟩
abbrev main_cst_18 : Ref sig .tc := ⟨.hbm, 199, rfl⟩
abbrev main_v155 : Ref sig .tc := ⟨.hbm, 200, rfl⟩
abbrev main_cst_19 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_20 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_21 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  slices_S3x128_S1x128_0_0 : S3x128.Slices ![0, 0] S1x128
  shapeCasts_S1x128_S128 : S1x128.ShapeCasts S128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128_S1x128_1_0 : S3x128.Slices ![1, 0] S1x128
  slices_S3x128_S1x128_2_0 : S3x128.Slices ![2, 0] S1x128
  bcast_S_S1000 : S_.BroadcastsInDim S1000 (![] : Fin 0 → Fin S1000.rank)
  bcast_S100000_S100000x1_0 : S100000.BroadcastsInDim S100000x1 (![0] : Fin 1 → Fin S100000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x100_S100x128_S100000x128_1_0_0_1_n_n_wf : DotDims.WF S100000x100 S100x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []
  scatter_S1000_S100000x1_S100000_n_0_0_1_wf : ScatterDims.WF S1000 S100000x1 S100000 [] [0] [0] 1
  scatter_S1000x128_S100000x1_S100000x128_1_0_0_1_wf : ScatterDims.WF S1000x128 S100000x1 S100000x128 [1] [0] [0] 1
  dot_S1000x128_S128x1_S1000x1_1_0_0_1_n_n_wf : DotDims.WF S1000x128 S128x1 S1000x1 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.RunResult.lean ====
/-
  The idealized kernel's run with its result named.

  The program is six tiled regions among stretches of host operations. Its run passes through sixteen boundary
  valuations, the last of which holds every unscoped buffer's final contents; the frame statement keeps only the
  argument buffers of that last valuation. Here the same run is read at the result buffer as well: every weakly fair
  execution terminates with the result buffer at the last boundary valuation's contents and the arguments unchanged.
-/
import proofs.«129210_j46737834115716_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary valuation's contents and every argument buffer as launched. -/
theorem run_result : θ_run defs (onTc (τ := τ) (main (F := F))) ⟨m, fun _ => 0, ρ⟩ (fun r => ∀ c : Dev nD,
      r.2.mem ((c.tc : Thread nD τ).loc main_v131) = W15 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v131 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c)⟩)

end Cert.KernelIdeal.Gen

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«129210_j46737834115716_2_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.LinRegion.lean ====
/-
  The three linear layers of the kernel, each read as one whole-array product.

  Each linear region multiplies a [100000, K] array by a [K, 128] array, 5000 rows per grid point over 20 points
  (K = 100 in the first layer, K = 128 in the other two). At point `t` the row window's block is rows
  `5000 t … 5000 t + 4999` of the left array (block index (t, 0)), the weight window's block is the whole right
  array (block index (0, 0)), and the output window's block is the same rows of the result. On the extended reals
  the narrowing of both blocks to bf16 is the identity and the product into a zero accumulator has, at entry
  `(p, q)`, the value `Σ_k x[p, k] · w[k, q]`. The host's product of the whole arrays has at entry `(r, q)` the
  value `Σ_k X[r, k] · W[k, q]`; with `r = 5000 t + p` the two sums have the same terms. The 20 blocks cover all
  100000 rows (row `r` lies in the block of point `r / 5000`), so after the region the output array is the host's
  product of the two arrays the region read, whatever those arrays hold when the region is entered.
-/
import proofs.«129210_j46737834115716_2_alg».proof.Proof.Gen.KernelIdeal.Frame
import proofs.«129210_j46737834115716_2_alg».proof.Proof.Gen.ReferenceIdeal.Read
import proofs.«129210_j46737834115716_2_alg».proof.Proof.LibMatmulRead
import proofs.«129210_j46737834115716_2_alg».proof.Proof.LibDotRead
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.MatmulRead
open scoped BigOperators

/-! ## The body's product at an entry -/

/-- The zero offsets of a whole-block access, spelt as a constant function. -/
theorem hz : (![0, 0] : Fin 2 → Nat) = fun _ => 0 := funext fun a => by fin_cases a <;> rfl

/-- The first layer's body: entry `(p, q)` of the block's product is `Σ_k x0[p, k] · x1[k, q]` over `k < 100`
    (narrowing to bf16 changes nothing on the extended reals; the accumulator is zero). -/
theorem pay0_apply (x0 : Vec Ideal S5000x100 .f32) (x1 : Vec Ideal S100x128 .f32) (p : Fin 5000) (q : Fin 128) :
    k0_pay1 (F := Ideal) x0 x1 (ix2 p q) = ∑ k : Fin 100, x0 (ix2 p k) * x1 (ix2 k q) := by
  unfold k0_pay1
  exact matmul_zero_ix2 (D := dot_S5000x100_S100x128_S5000x128_1_0_0_1_n_n) ⟨rfl, rfl, rfl, rfl, rfl, rfl⟩ rfl rfl none _ _ p q

/-- The second layer's body: the same with `k < 128` (the reshape to the same shape changes nothing). -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact matmul_zero_ix2 (D := dot_S5000x128_S128x128_S5000x128_1_0_0_1_n_n) ⟨rfl, rfl, rfl, rfl, rfl, rfl⟩ rfl rfl none _ _ p q

/-- The third layer's body: the same. -/
theorem pay4_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  rw [shapeCast_self]
  exact matmul_zero_ix2 (D := dot_S5000x128_S128x128_S5000x128_1_0_0_1_n_n) ⟨rfl, rfl, rfl, rfl, rfl, rfl⟩ rfl rfl none _ _ p q

/-! ## A block of rows of the whole product -/

/-- A block of 5000 consecutive rows of the product: if `x0` holds rows `5000 T … 5000 T + 4999` of `X` and
    `x1` is all of `W`, entry `(p, q)` of the block's product is entry `(5000 T + p, q)` of the host's product
    of the whole arrays (both are the sum over the contracted axis of the same terms). -/
theorem rows_entry {K : Nat}
    (D : DotDims (⟨2, ![100000, K]⟩ : Shape) (⟨2, ![K, 128]⟩ : Shape) (⟨2, ![100000, 128]⟩ : Shape))
    (hD : RowsByCols D) (hr : D.contr.rank = 1) (hs : D.contr.size ⟨0, by omega⟩ = K)
    (X : FVec Ideal (⟨2, ![100000, K]⟩ : Shape) .f32) (W : FVec Ideal (⟨2, ![K, 128]⟩ : Shape) .f32)
    (x0 : FVec Ideal (⟨2, ![5000, K]⟩ : Shape) .f32) (x1 : FVec Ideal (⟨2, ![K, 128]⟩ : Shape) .f32)
    (p : Fin 5000) (q : Fin 128) (r : Fin 100000)
    (h0 : ∀ k : Fin K, x0 (ix2 p k) = X (ix2 r k))
    (h1 : ∀ k : Fin K, x1 (ix2 k q) = W (ix2 k q)) :
    ∑ k : Fin K, x0 (ix2 p k) * x1 (ix2 k q) = Host.dotGeneral D none X W (ix2 r q) := by
  rw [hostDot_ix2 hD hr hs none X W r q]
  exact Finset.sum_congr rfl fun k _ => by rw [h0 k, h1 k]

/-! ## Region 0 -/

/-- The printed index maps over the grid: the row window and the output window sit at block row `t`, the
    weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host's product of the two arrays the region reads, as it finds them. -/
abbrev G0 (V : (c : Dev nD) → (b : Ref sig .tc) → Buf (Elt Ideal) ((c : Thread nD τ).loc b)) (c : Dev nD) :
    Buf (Elt Ideal) ((cfg0.win 2).arr.view.loc (c.tc : Thread nD τ)) :=
  Host.dotGeneral (F := Ideal) (φ₁ := .f32) (φ₂ := .f32) Cert.ReferenceIdeal.dot_S100000x100_S100x128_S100000x128_1_0_0_1_n_n none
    (V c (Pipeline.arrRef spec0 0)) (V c (Pipeline.arrRef spec0 1))

/-- What point `t` writes back is block `t` (rows `5000 t … 5000 t + 4999`) of the host's product. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz]
  simp only [View.ld_unit_zero (S := S5000x100) hz, View.ld_unit_zero (S := S100x128) hz]
  obtain ⟨e00, e01, e10, e11, e20, e21⟩ := idx_facts0 t
  have hN : t.val < 20 := lt_of_lt_of_eq t.isLt N_0
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = G0 V c (((cfg0.win 2).blk t).view.emb (ix2 p q))
  have hr : t.val * 5000 + p.val < 100000 := by have := p.isLt; omega
  have hemb : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; rw [e20]; omega
    | ⟨1, _⟩ => show win0_2.index t (1 : Fin 2) * 128 + 1 * q.val = q.val; rw [e21]; omega
  rw [hemb]
  refine (pay0_apply _ _ p q).trans ?_
  refine rows_entry (K := 100) Cert.ReferenceIdeal.dot_S100000x100_S100x128_S100000x128_1_0_0_1_n_n ⟨rfl, rfl, rfl, rfl, rfl, rfl⟩ rfl rfl _ _ _ _ p q ⟨_, hr⟩ (fun k => ?_) (fun k => ?_)
  · show V c (Pipeline.arrRef spec0 0) (((cfg0.win 0).blk t).view.emb (ix2 p k)) = V c (Pipeline.arrRef spec0 0) (ix2 (⟨t.val * 5000 + p.val, hr⟩ : Fin 100000) k)
    congr 1; funext a; apply Fin.ext
    match a with
    | ⟨0, _⟩ => show win0_0.index t (0 : Fin 2) * 5000 + 1 * p.val = t.val * 5000 + p.val; rw [e00]; omega
    | ⟨1, _⟩ => show win0_0.index t (1 : Fin 2) * 100 + 1 * k.val = k.val; rw [e01]; omega
  · show V c (Pipeline.arrRef spec0 1) (((cfg0.win 1).blk t).view.emb (ix2 k q)) = V c (Pipeline.arrRef spec0 1) (ix2 k q)
    congr 1; funext a; apply Fin.ext
    match a with
    | ⟨0, _⟩ => show win0_1.index t (0 : Fin 2) * 100 + 1 * k.val = k.val; rw [e10]; omega
    | ⟨1, _⟩ => show win0_1.index t (1 : Fin 2) * 128 + 1 * q.val = q.val; rw [e11]; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v40).slice (win0_2.rect t)).set ↔ _
  rw [View.set_slice_whole, Rect.mem_set_unit]
  exact Iff.rfl

/-- The blocks cover the array: row `r` is in the block of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by rw [show cfg0.N = 20 from N_0]; omega
  obtain ⟨-, -, -, -, e20, e21⟩ := idx_facts0 ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e20']; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e21]; omega

/-- After the region the output array holds the host's product of the two arrays the region read. -/
theorem lin_final0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x100_S100x128_S100000x128_1_0_0_1_n_n none
          (V c (Pipeline.arrRef spec0 0)) (V c (Pipeline.arrRef spec0 1)) :=
  (dat0 (F := Ideal) V c).arrAt_eq_of_cover 2 (G0 V c) (fun t _ => flushed0_eq V c t) cover0

/-! ## Region 2 -/

/-- The printed index maps over the grid: the row window and the output window sit at block row `t`, the
    weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The host's product of the two arrays the region reads, as it finds them. -/
abbrev G2 (V : (c : Dev nD) → (b : Ref sig .tc) → Buf (Elt Ideal) ((c : Thread nD τ).loc b)) (c : Dev nD) :
    Buf (Elt Ideal) ((cfg2.win 2).arr.view.loc (c.tc : Thread nD τ)) :=
  Host.dotGeneral (F := Ideal) (φ₁ := .f32) (φ₂ := .f32) Cert.ReferenceIdeal.dot_S100000x128_S128x128_S100000x128_1_0_0_1_n_n none
    (V c (Pipeline.arrRef spec2 0)) (V c (Pipeline.arrRef spec2 1))

/-- What point `t` writes back is block `t` (rows `5000 t … 5000 t + 4999`) of the host's product. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (G2 V c) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts2 t
  have hN : t.val < 20 := lt_of_lt_of_eq t.isLt N_2
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = G2 V c (((cfg2.win 2).blk t).view.emb (ix2 p q))
  have hr : t.val * 5000 + p.val < 100000 := by have := p.isLt; omega
  have hemb : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; rw [e20]; omega
    | ⟨1, _⟩ => show win2_2.index t (1 : Fin 2) * 128 + 1 * q.val = q.val; rw [e21]; omega
  rw [hemb]
  refine (pay2_apply _ _ p q).trans ?_
  refine rows_entry (K := 128) Cert.ReferenceIdeal.dot_S100000x128_S128x128_S100000x128_1_0_0_1_n_n ⟨rfl, rfl, rfl, rfl, rfl, rfl⟩ rfl rfl _ _ _ _ p q ⟨_, hr⟩ (fun k => ?_) (fun k => ?_)
  · show V c (Pipeline.arrRef spec2 0) (((cfg2.win 0).blk t).view.emb (ix2 p k)) = V c (Pipeline.arrRef spec2 0) (ix2 (⟨t.val * 5000 + p.val, hr⟩ : Fin 100000) k)
    congr 1; funext a; apply Fin.ext
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · show V c (Pipeline.arrRef spec2 1) (((cfg2.win 1).blk t).view.emb (ix2 k q)) = V c (Pipeline.arrRef spec2 1) (ix2 k q)
    congr 1; funext a; apply Fin.ext
    match a with
    | ⟨0, _⟩ => show win2_1.index t (0 : Fin 2) * 128 + 1 * k.val = k.val; rw [e10]; omega
    | ⟨1, _⟩ => show win2_1.index t (1 : Fin 2) * 128 + 1 * q.val = q.val; rw [e11]; omega

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v68).slice (win2_2.rect t)).set ↔ _
  rw [View.set_slice_whole, Rect.mem_set_unit]
  exact Iff.rfl

/-- The blocks cover the array: row `r` is in the block of point `r / 5000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < cfg2.N := by rw [show cfg2.N = 20 from N_2]; omega
  obtain ⟨-, -, -, -, e20, e21⟩ := idx_facts2 ⟨(i 0).val / 5000, ht⟩
  have e20' : win2_2.index ⟨(i 0).val / 5000, ht⟩ (0 : Fin 2) = (i 0).val / 5000 := e20
  refine ⟨⟨(i 0).val / 5000, ht⟩, flush2_2 _, ?_⟩
  rw [mem_blk2]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; rw [e20']; omega
  | ⟨1, _⟩ => show win2_2.index ⟨(i 0).val / 5000, ht⟩ (1 : Fin 2) * 128 ≤ (i 1).val ∧ (i 1).val < win2_2.index ⟨(i 0).val / 5000, ht⟩ (1 : Fin 2) * 128 + 128; rw [e21]; omega

/-- After the region the output array holds the host's product of the two arrays the region read. -/
theorem lin_final2 (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S100000x128_S128x128_S100000x128_1_0_0_1_n_n none
          (V c (Pipeline.arrRef spec2 0)) (V c (Pipeline.arrRef spec2 1)) :=
  (dat2 (F := Ideal) V c).arrAt_eq_of_cover 2 (G2 V c) (fun t _ => flushed2_eq V c t) cover2

/-! ## Region 4 -/

/-- The printed index maps over the grid: the row window and the output window sit at block row `t`, the
    weight window at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The host's product of the two arrays the region reads, as it finds them. -/
abbrev G4 (V : (c : Dev nD) → (b : Ref sig .tc) → Buf (Elt Ideal) ((c : Thread nD τ).loc b)) (c : Dev nD) :
    Buf (Elt Ideal) ((cfg4.win 2).arr.view.loc (c.tc : Thread nD τ)) :=
  Host.dotGeneral (F := Ideal) (φ₁ := .f32) (φ₂ := .f32) Cert.ReferenceIdeal.dot_S100000x128_S128x128_S100000x128_1_0_0_1_n_n none
    (V c (Pipeline.arrRef spec4 0)) (V c (Pipeline.arrRef spec4 1))

/-- What point `t` writes back is block `t` (rows `5000 t … 5000 t + 4999`) of the host's product. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (G4 V c) := by
  show (cfg4.win 2).cut (grid4.coords t) ((dat4 (F := Ideal) V c).after 2 t) = _
  rw [after4_2]
  unfold out4_2
  rw [View.canon_unit_zero hz]
  simp only [View.ld_unit_zero (S := S5000x128) hz, View.ld_unit_zero (S := S128x128) hz]
  obtain ⟨e00, e01, e10, e11, e20, e21⟩ := idx_facts4 t
  have hN : t.val < 20 := lt_of_lt_of_eq t.isLt N_4
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q) = G4 V c (((cfg4.win 2).blk t).view.emb (ix2 p q))
  have hr : t.val * 5000 + p.val < 100000 := by have := p.isLt; omega
  have hemb : ((cfg4.win 2).blk t).view.emb (ix2 p q) = ix2 (⟨t.val * 5000 + p.val, hr⟩ : Fin 100000) q := by
    funext a; apply Fin.ext
    match a with
    | ⟨0, _⟩ => show win4_2.index t (0 : Fin 2) * 5000 + 1 * p.val = t.val * 5000 + p.val; rw [e20]; omega
    | ⟨1, _⟩ => show win4_2.index t (1 : Fin 2) * 128 + 1 * q.val = q.val; rw [e21]; omega
  rw [hemb]
  refine (pay4_apply _ _ p q).trans ?_
  refine rows_entry (K := 128) Cert.ReferenceIdeal.dot_S100000x128_S128x128_S100000x128_1_0_0_1_n_n ⟨rfl, rfl, rfl, rfl, rfl, rfl⟩ rfl rfl _ _ _ _ p q ⟨_, hr⟩ (fun k => ?_) (fun k => ?_)
  · show V c (Pipeline.arrRef spec4 0) (((cfg4.win 0).blk t).view.emb (ix2 p k)) = V c (Pipeline.arrRef spec4 0) (ix2 (⟨t.val * 5000 + p.val, hr⟩ : Fin 100000) k)
    congr 1; funext a; apply Fin.ext
    match a with
    | ⟨0, _⟩ => show win4_0.index t (0 : Fin 2) * 5000 + 1 * p.val = t.val * 5000 + p.val; rw [e00]; omega
    | ⟨1, _⟩ => show win4_0.index t (1 : Fin 2) * 128 + 1 * k.val = k.val; rw [e01]; omega
  · show V c (Pipeline.arrRef spec4 1) (((cfg4.win 1).blk t).view.emb (ix2 k q)) = V c (Pipeline.arrRef spec4 1) (ix2 k q)
    congr 1; funext a; apply Fin.ext
    match a with
    | ⟨0, _⟩ => show win4_1.index t (0 : Fin 2) * 128 + 1 * k.val = k.val; rw [e10]; omega
    | ⟨1, _⟩ => show win4_1.index t (1 : Fin 2) * 128 + 1 * q.val = q.val; rw [e11]; omega

/-- An index of the array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v96).slice (win4_2.rect t)).set ↔ _
  rw [View.set_slice_whole, Rect.mem_set_unit]
  exact Iff.rfl

/-- The blocks cover the array: row `r` is in the block of point `r / 5000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < cfg4.N := by rw [show cfg4.N = 20 from N_4]; omega
  obtain ⟨-, -, -, -, e20, e21⟩ := idx_facts4 ⟨(i 0).val / 5000, ht⟩
  have e20' : win4_2.index ⟨(i 0).val / 5000, ht⟩ (0 : Fin 2) = (i 0).val / 5000 := e20
  refine ⟨⟨(i 0).val / 5000, ht⟩, flush4_2 _, ?_⟩
  rw [mem_blk4]
  intro a
  match a with
  | ⟨0, _⟩ => show win4_2.index ⟨(i 0).val / 5000, ht⟩ (0 : Fin 2) * 5000 ≤ (i 0).val ∧ (i 0).val < win4_2.index ⟨(i 0).val / 5000, ht⟩ (0 : Fin 2) * 5000 + 5000; rw [e20']; omega
  | ⟨1, _⟩ => show win4_2.index ⟨(i 0).val / 5000, ht⟩ (1 : Fin 2) * 128 ≤ (i 1).val ∧ (i 1).val < win4_2.index ⟨(i 0).val / 5000, ht⟩ (1 : Fin 2) * 128 + 128; rw [e21]; omega

/-- After the region the output array holds the host's product of the two arrays the region read. -/
theorem lin_final4 (V : (c : Dev nD) → (b : Ref sig .tc) → Buf (Elt Ideal) ((c : Thread nD τ).loc b)) (c : Dev nD) :
    (dat4 (F := Ideal) V c).arrAt 2 cfg4.N
      = Host.dotGeneral (F := Ideal) (φ₁ := .f32) (φ₂ := .f32) Cert.ReferenceIdeal.dot_S100000x128_S128x128_S100000x128_1_0_0_1_n_n none
          (V c (Pipeline.arrRef spec4 0)) (V c (Pipeline.arrRef spec4 1)) :=
  (dat4 (F := Ideal) V c).arrAt_eq_of_cover 2 (G4 V c) (fun t _ => flushed4_eq V c t) cover4

end Cert.KernelIdeal.Bridge

end
-- ==== Proof.BnRegion.lean ====
/- The three batch-norm (eval) + relu regions of the kernel against the reference's host chain.

   Each of the regions 1, 3, 5 takes a [100000,128] array `X` in 50 blocks of 2000 rows and five [1,128] parameter rows
   (bias, gamma, beta, running mean, running variance) and writes, entry by entry,
       max( gamma·((x + bias) − mean)·rsqrt(var + ε) + beta , 0 ),
   associated as ((gamma·((x + bias) − mean))·rsqrt(var + ε)) + beta, with ε the f32 word 0x3727C5AC. The reference does the
   same on the host with the parameters as [128] vectors broadcast to [1,128] and then down the 100000 rows. At the
   extended reals both sides are the same expression in the entries, in the same association, so no algebraic law and no
   finiteness is used: kernel `rsqrt` and host `rsqrt` are one function, a splat of a constant is the constant on both
   sides, `maximumf` is `max` on both sides.

   Contents: the reference chain as one function `refBn` of the array and the five vectors, and the three stages of the
   reference as instances of it (by unfolding); `refBn` and the kernel's payload read at an entry (`bnAt`); per region, the
   index maps decided over the grid, the blocks read as rows of the arrays, what a point writes back as a block of
   `refBn`, the cover of the output by the 50 blocks, and the output array after the region as `refBn` of the arrays the
   region finds. -/
import proofs.«129210_j46737834115716_2_alg».proof.Proof.Gen.KernelIdeal.Frame
import proofs.«129210_j46737834115716_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen

/-! ## The reference chain -/

/-- The reference's batch-norm + relu chain on the host, with the aggregated array and the five parameter
    vectors as variables: bias added, mean subtracted, gamma multiplied on the left, rsqrt(var + ε) multiplied on the
    right, beta added, maximum with the zero splat. -/
def refBn (X : FVec Ideal Cert.ReferenceIdeal.S100000x128 .f32) (b g bt rm rv : FVec Ideal Cert.ReferenceIdeal.S128 .f32) :
    FVec Ideal Cert.ReferenceIdeal.S100000x128 .f32 :=
  maximumf
    (addf
      (mulf
        (mulf
          (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 g))
          (subf
            (addf X
              (broadcastInDim Cert.ReferenceIdeal.S100000x128 ![0, 1] Cert.ReferenceIdeal.Gen.bcast_S1x128_S100000x128_0_1
                (broadcastInDim Cert.ReferenceIdeal.S1x128 ![1] Cert.ReferenceIdeal.Gen.bcast_S128_S1x128_1 b)))
            (broadcastInDim Cert.ReferenceIdeal.S100000x128 ![0, 1] Cert.ReferenceIdeal.Gen.bcast_S1x128_S100000x128_0_1
              (broadcastInDim Cert.ReferenceIdeal.S1x128 ![1] Cert.ReferenceIdeal.Gen.bcast_S128_S1x128_1 rm))))
        (broadcastInDim Cert.ReferenceIdeal.S100000x128 ![0, 1] Cert.ReferenceIdeal.Gen.bcast_S1x128_S100000x128_0_1
          (broadcastInDim Cert.ReferenceIdeal.S1x128 ![1] Cert.ReferenceIdeal.Gen.bcast_S128_S1x128_1
            (Host.rsqrt (addf rv
              (broadcastInDim Cert.ReferenceIdeal.S128 ![] Cert.ReferenceIdeal.Gen.bcast_S_S128
                (constant (F := Ideal) Cert.ReferenceIdeal.S_ .f32 0x3727C5AC#32)))))))
      (broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 bt)))
    (broadcastInDim Cert.ReferenceIdeal.S100000x128 ![] Cert.ReferenceIdeal.Gen.bcast_S_S100000x128
      (constant (F := Ideal) Cert.ReferenceIdeal.S_ .f32 0x00000000#32))

/-! ## The reference's three batch-norm stages are that chain

Each stage of the reference is the chain applied to the aggregated array before it, the layer's bias argument and the
layer's row of the gamma, beta, mean and variance tables: the same operations in the same order, so the two terms are
one after unfolding. -/

open Cert.ReferenceIdeal in
theorem refBn_v72 (x0 : (⟨Cert.ReferenceIdeal.S100000x100, .f32⟩ : BufTy).Contents (Elt Ideal)) (x1 : (⟨Cert.ReferenceIdeal.S2x640000, .i32⟩ : BufTy).Contents (Elt Ideal))
    (x2 : (⟨Cert.ReferenceIdeal.S640000, .f32⟩ : BufTy).Contents (Elt Ideal)) (x4 : (⟨Cert.ReferenceIdeal.S100x128, .f32⟩ : BufTy).Contents (Elt Ideal))
    (x5 : (⟨Cert.ReferenceIdeal.S128, .f32⟩ : BufTy).Contents (Elt Ideal)) (x10 x11 x12 x13 : (⟨Cert.ReferenceIdeal.S3x128, .f32⟩ : BufTy).Contents (Elt Ideal)) :
    Read.val_main_v72 (F := Ideal) x0 x1 x2 x4 x5 x10 x11 x12 x13
      = refBn (Read.val_main_v53 (F := Ideal) x0 x1 x2 x4) x5 (Read.val_main_v33 (F := Ideal) x10) (Read.val_main_v35 (F := Ideal) x11)
          (Read.val_main_v37 (F := Ideal) x12) (Read.val_main_v39 (F := Ideal) x13) := rfl

open Cert.ReferenceIdeal in
theorem refBn_v113 (x0 : (⟨Cert.ReferenceIdeal.S100000x100, .f32⟩ : BufTy).Contents (Elt Ideal)) (x1 : (⟨Cert.ReferenceIdeal.S2x640000, .i32⟩ : BufTy).Contents (Elt Ideal))
    (x2 : (⟨Cert.ReferenceIdeal.S640000, .f32⟩ : BufTy).Contents (Elt Ideal)) (x4 : (⟨Cert.ReferenceIdeal.S100x128, .f32⟩ : BufTy).Contents (Elt Ideal))
    (x5 : (⟨Cert.ReferenceIdeal.S128, .f32⟩ : BufTy).Contents (Elt Ideal)) (x6 : (⟨Cert.ReferenceIdeal.S128x128, .f32⟩ : BufTy).Contents (Elt Ideal))
    (x7 : (⟨Cert.ReferenceIdeal.S128, .f32⟩ : BufTy).Contents (Elt Ideal)) (x10 x11 x12 x13 : (⟨Cert.ReferenceIdeal.S3x128, .f32⟩ : BufTy).Contents (Elt Ideal)) :
    Read.val_main_v113 (F := Ideal) x0 x1 x2 x4 x5 x6 x7 x10 x11 x12 x13
      = refBn (Read.val_main_v94 (F := Ideal) x0 x1 x2 x4 x5 x6 x10 x11 x12 x13) x7 (Read.val_main_v74 (F := Ideal) x10) (Read.val_main_v76 (F := Ideal) x11)
          (Read.val_main_v78 (F := Ideal) x12) (Read.val_main_v80 (F := Ideal) x13) := rfl

open Cert.ReferenceIdeal in
theorem refBn_v154 (x0 : (⟨Cert.ReferenceIdeal.S100000x100, .f32⟩ : BufTy).Contents (Elt Ideal)) (x1 : (⟨Cert.ReferenceIdeal.S2x640000, .i32⟩ : BufTy).Contents (Elt Ideal))
    (x2 : (⟨Cert.ReferenceIdeal.S640000, .f32⟩ : BufTy).Contents (Elt Ideal)) (x4 : (⟨Cert.ReferenceIdeal.S100x128, .f32⟩ : BufTy).Contents (Elt Ideal))
    (x5 : (⟨Cert.ReferenceIdeal.S128, .f32⟩ : BufTy).Contents (Elt Ideal)) (x6 : (⟨Cert.ReferenceIdeal.S128x128, .f32⟩ : BufTy).Contents (Elt Ideal))
    (x7 : (⟨Cert.ReferenceIdeal.S128, .f32⟩ : BufTy).Contents (Elt Ideal)) (x8 : (⟨Cert.ReferenceIdeal.S128x128, .f32⟩ : BufTy).Contents (Elt Ideal))
    (x9 : (⟨Cert.ReferenceIdeal.S128, .f32⟩ : BufTy).Contents (Elt Ideal)) (x10 x11 x12 x13 : (⟨Cert.ReferenceIdeal.S3x128, .f32⟩ : BufTy).Contents (Elt Ideal)) :
    Read.val_main_v154 (F := Ideal) x0 x1 x2 x4 x5 x6 x7 x8 x9 x10 x11 x12 x13
      = refBn (Read.val_main_v135 (F := Ideal) x0 x1 x2 x4 x5 x6 x7 x8 x10 x11 x12 x13) x9 (Read.val_main_v115 (F := Ideal) x10) (Read.val_main_v117 (F := Ideal) x11)
          (Read.val_main_v119 (F := Ideal) x12) (Read.val_main_v121 (F := Ideal) x13) := rfl

/-! ## Both sides at an entry -/

/-- One entry of the batch-norm + relu: the expression both sides compute, in the association both sides use. -/
def bnAt (x b g bt rm rv : EReal) : EReal :=
  max (g * ((x + b) - rm) * Ideal.rsqrt (rv + Ideal.ofBits .f32 0x3727C5AC#32) + bt) (Ideal.ofBits .f32 0x00000000#32)

theorem bn_vrsqrt_apply {s : Shape} (a : FVec Ideal s .f32) (i : s.Idx) : rsqrt a i = Ideal.rsqrt (a i) := rfl

/-- A [128] vector laid as a [1,128] row reads its entry. -/
theorem bn_row_apply (v : FVec Ideal Cert.ReferenceIdeal.S128 .f32) (q : Fin 128) :
    broadcastInDim Cert.ReferenceIdeal.S1x128 ![1] Cert.ReferenceIdeal.Gen.bcast_S128_S1x128_1 v (ix2 (0 : Fin 1) q) = v (ix1 q) := by
  refine broadcastInDim_apply _ Cert.ReferenceIdeal.Gen.bcast_S128_S1x128_1 v (ix2 (0 : Fin 1) q) (ix1 q) (fun a => ?_)
  match a with
  | ⟨0, _⟩ => show q.val = if (128 : Nat) = 1 then 0 else q.val; rw [if_neg (by decide)]

/-- A [1,128] row laid down the 100000 rows reads the row. -/
theorem bn_rows_apply (y : FVec Ideal Cert.ReferenceIdeal.S1x128 .f32) (r : Fin 100000) (q : Fin 128) :
    broadcastInDim Cert.ReferenceIdeal.S100000x128 ![0, 1] Cert.ReferenceIdeal.Gen.bcast_S1x128_S100000x128_0_1 y (ix2 r q)
      = y (ix2 (0 : Fin 1) q) :=
  broadcastInDim_oneRow_apply Cert.ReferenceIdeal.Gen.bcast_S1x128_S100000x128_0_1 y r q

/-- The reference chain at entry (r, q): the entry of `X` there and entry `q` of each parameter vector. The two constant
    splats read their constant, and the host's rsqrt is the kernel's function, by unfolding. -/
theorem refBn_apply (X : FVec Ideal Cert.ReferenceIdeal.S100000x128 .f32) (b g bt rm rv : FVec Ideal Cert.ReferenceIdeal.S128 .f32)
    (r : Fin 100000) (q : Fin 128) :
    refBn X b g bt rm rv (ix2 r q) = bnAt (X (ix2 r q)) (b (ix1 q)) (g (ix1 q)) (bt (ix1 q)) (rm (ix1 q)) (rv (ix1 q)) := by
  unfold refBn bnAt
  simp only [maximumf_apply, addf_apply, mulf_apply, subf_apply]
  rw [bn_rows_apply, bn_rows_apply, bn_rows_apply, bn_rows_apply, bn_rows_apply,
    bn_row_apply, bn_row_apply, bn_row_apply, bn_row_apply, bn_row_apply]
  rfl

/-- The kernel's payload at entry (p, q) of its block: the entry of the aggregated block there and entry (0, q) of each
    parameter row (the body's casts to the same shape are the identity; a [1,128] row broadcast over the block's rows reads
    the row). The payload's arguments come in the order the body loads them: bias, gamma, mean, variance, beta. -/
theorem bn_pay_apply (x0 : Vec Ideal S2000x128 .f32) (xb xg xm xv xbt : Vec Ideal S1x128 .f32) (p : Fin 2000) (q : Fin 128) :
    k1_pay1 (F := Ideal) x0 xb xg xm xv xbt (ix2 p q)
      = bnAt (x0 (ix2 p q)) (xb (ix2 (0 : Fin 1) q)) (xg (ix2 (0 : Fin 1) q)) (xbt (ix2 (0 : Fin 1) q)) (xm (ix2 (0 : Fin 1) q)) (xv (ix2 (0 : Fin 1) q)) := by
  unfold k1_pay1 bnAt
  simp only [shapeCast_self, maximumf_apply, addf_apply, mulf_apply, subf_apply, bn_vrsqrt_apply, broadcastTo_1b_ab_apply, broadcast_apply]
  rfl

/-- The three regions run the same body: their payloads are one function. -/
theorem bn_pay3_eq : @k3_pay1 Ideal _ = @k1_pay1 Ideal _ := rfl
theorem bn_pay5_eq : @k5_pay1 Ideal _ = @k1_pay1 Ideal _ := rfl

/-! ## From blocks to the array -/

theorem bn_hz : (![0, 0] : Fin 2 → Nat) = fun _ => 0 := funext fun a => by fin_cases a <;> rfl

/-- One entry of a block: the kernel's payload over a block of rows of `X` and the parameter rows is the reference chain
    at that row of `X`. -/
theorem bn_entry_eq (X : FVec Ideal Cert.ReferenceIdeal.S100000x128 .f32) (b g bt rm rv : FVec Ideal Cert.ReferenceIdeal.S128 .f32)
    (x0 : Vec Ideal S2000x128 .f32) (xb xg xbt xm xv : Vec Ideal S1x128 .f32) (p : Fin 2000) (q : Fin 128) (r : Fin 100000)
    (h0 : x0 (ix2 p q) = X (ix2 r q)) (hb : xb (ix2 (0 : Fin 1) q) = b (ix1 q)) (hg : xg (ix2 (0 : Fin 1) q) = g (ix1 q))
    (hbt : xbt (ix2 (0 : Fin 1) q) = bt (ix1 q)) (hm : xm (ix2 (0 : Fin 1) q) = rm (ix1 q)) (hv : xv (ix2 (0 : Fin 1) q) = rv (ix1 q)) :
    k1_pay1 (F := Ideal) x0 xb xg xm xv xbt (ix2 p q) = refBn X b g bt rm rv (ix2 r q) := by
  rw [bn_pay_apply, refBn_apply, h0, hb, hg, hbt, hm, hv]

/-! ### Region 1 (layer 1) -/

section Region1
variable (V : (c : Dev nD) → (b : Ref sig .tc) → Buf (Elt Ideal) ((c : Thread nD τ).loc b))

/-- The printed index maps of region 1, decided over its 50 points: the aggregated array and the output move down the
    rows with the point, the parameter rows stay at block (0, 0). -/
theorem bn_idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem bn_lt_N1 (t : Fin cfg1.N) : t.val < 50 := by
  have h := t.isLt; have hN : cfg1.N = 50 := N_1; omega

/-- Block `t` of the aggregated array is its rows `2000 t … 2000 t + 1999`. -/
theorem bn_iblk1_0_apply (c : Dev nD) (t : Fin cfg1.N) (p : Fin 2000) (q : Fin 128) (r : Fin 100000) (hr : r.val = 2000 * t.val + p.val) :
    (iblk1 V c 0 t : Vec Ideal S2000x128 .f32) (ix2 p q) = (V c (Pipeline.arrRef spec1 0) : Vec Ideal S100000x128 .f32) (ix2 r q) := by
  obtain ⟨e00, e01, -⟩ := bn_idx_facts1 t
  show V c (Pipeline.arrRef spec1 0) (((cfg1.win 0).blk t).view.emb (ix2 p q)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * q.val = q.val; omega

set_option maxHeartbeats 1000000 in
/-- Each parameter window's block, at every point, is row 0 of its [1,128] array. -/
theorem bn_iblk1_rows (c : Dev nD) (t : Fin cfg1.N) (q : Fin 128) :
    (iblk1 V c 1 t : Vec Ideal S1x128 .f32) (ix2 (0 : Fin 1) q) = (V c (Pipeline.arrRef spec1 1) : Vec Ideal S1x128 .f32) (ix2 (0 : Fin 1) q)
    ∧ (iblk1 V c 2 t : Vec Ideal S1x128 .f32) (ix2 (0 : Fin 1) q) = (V c (Pipeline.arrRef spec1 2) : Vec Ideal S1x128 .f32) (ix2 (0 : Fin 1) q)
    ∧ (iblk1 V c 3 t : Vec Ideal S1x128 .f32) (ix2 (0 : Fin 1) q) = (V c (Pipeline.arrRef spec1 3) : Vec Ideal S1x128 .f32) (ix2 (0 : Fin 1) q)
    ∧ (iblk1 V c 4 t : Vec Ideal S1x128 .f32) (ix2 (0 : Fin 1) q) = (V c (Pipeline.arrRef spec1 4) : Vec Ideal S1x128 .f32) (ix2 (0 : Fin 1) q)
    ∧ (iblk1 V c 5 t : Vec Ideal S1x128 .f32) (ix2 (0 : Fin 1) q) = (V c (Pipeline.arrRef spec1 5) : Vec Ideal S1x128 .f32) (ix2 (0 : Fin 1) q) := by
  obtain ⟨-, -, e10, e11, e20, e21, e30, e31, e40, e41, e50, e51, -⟩ := bn_idx_facts1 t
  refine ⟨?_, ?_, ?_, ?_, ?_⟩
  · show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show V c (Pipeline.arrRef spec1 3) (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c (Pipeline.arrRef spec1 4) (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · show V c (Pipeline.arrRef spec1 5) (((cfg1.win 5).blk t).view.emb (ix2 (0 : Fin 1) q)) = _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega

/-- An entry of the output's block `t` sits in the array at row `2000 t + p`. -/
theorem bn_emb1_6 (t : Fin cfg1.N) (p : Fin 2000) (q : Fin 128) (r : Fin 100000) (hr : r.val = 2000 * t.val + p.val) :
    (((cfg1.win 6).blk t).view.emb (ix2 p q) : S100000x128.Idx) = ix2 r q := by
  obtain ⟨-, -, -, -, -, -, -, -, -, -, -, -, e60, e61⟩ := bn_idx_facts1 t
  funext a; apply Fin.ext
  match a with
  | ⟨0, _⟩ => show win1_6.index t (0 : Fin 2) * 2000 + 1 * p.val = r.val; omega
  | ⟨1, _⟩ => show win1_6.index t (1 : Fin 2) * 128 + 1 * q.val = q.val; omega

set_option maxHeartbeats 1000000 in
/-- WHAT POINT `t` WRITES BACK is block `t` of the reference chain of the arrays as the region finds them: the body's one
    store covers its staging buffer, its loads read the input blocks whole, and entry (p, q) of the payload depends on
    row `2000 t + p` of the aggregated array and on row 0 of each parameter array. -/
theorem bn_flushed_eq1 (c : Dev nD) (b g bt rm rv : FVec Ideal Cert.ReferenceIdeal.S128 .f32)
    (hb : ∀ q : Fin 128, V c (Pipeline.arrRef spec1 1) (ix2 (0 : Fin 1) q) = b (ix1 q))
    (hg : ∀ q : Fin 128, V c (Pipeline.arrRef spec1 2) (ix2 (0 : Fin 1) q) = g (ix1 q))
    (hbt : ∀ q : Fin 128, V c (Pipeline.arrRef spec1 3) (ix2 (0 : Fin 1) q) = bt (ix1 q))
    (hrm : ∀ q : Fin 128, V c (Pipeline.arrRef spec1 4) (ix2 (0 : Fin 1) q) = rm (ix1 q))
    (hrv : ∀ q : Fin 128, V c (Pipeline.arrRef spec1 5) (ix2 (0 : Fin 1) q) = rv (ix1 q))
    (t : Fin cfg1.N) :
    (dat1 (F := Ideal) V c).flushed 6 t
      = ((cfg1.win 6).blk t).view.read (Elt Ideal) (refBn (V c (Pipeline.arrRef spec1 0)) b g bt rm rv) := by
  show (cfg1.win 6).cut (grid1.coords t) ((dat1 V c).after 6 t) = _
  rw [after1_6]
  unfold out1_6
  rw [View.canon_unit_zero bn_hz]
  simp only [View.ld_unit_zero (S := S2000x128) bn_hz, View.ld_unit_zero (S := S1x128) bn_hz]
  have hN := bn_lt_N1 t
  funext j
  obtain ⟨p, q, rfl⟩ : ∃ (p : Fin 2000) (q : Fin 128), j = ix2 p q := ⟨j 0, j 1, eq_ix2 j⟩
  have hp : p.val < 2000 := p.isLt
  show k1_pay1 (F := Ideal) (iblk1 V c 0 t) (iblk1 V c 1 t) (iblk1 V c 2 t) (iblk1 V c 4 t) (iblk1 V c 5 t) (iblk1 V c 3 t) (ix2 p q)
    = refBn (V c (Pipeline.arrRef spec1 0)) b g bt rm rv (((cfg1.win 6).blk t).view.emb (ix2 p q))
  rw [bn_emb1_6 t p q ⟨2000 * t.val + p.val, by omega⟩ rfl]
  obtain ⟨r1, r2, r3, r4, r5⟩ := bn_iblk1_rows V c t q
  exact bn_entry_eq (V c (Pipeline.arrRef spec1 0)) b g bt rm rv (iblk1 V c 0 t) (iblk1 V c 1 t) (iblk1 V c 2 t) (iblk1 V c 3 t)
    (iblk1 V c 4 t) (iblk1 V c 5 t) p q ⟨2000 * t.val + p.val, by omega⟩ (bn_iblk1_0_apply V c t p q _ rfl)
    (r1.trans (hb q)) (r2.trans (hg q)) (r3.trans (hbt q)) (r4.trans (hrm q)) (r5.trans (hrv q))

/-- An index of the output array is in point `t`'s block iff each coordinate is in the block's range on its axis. -/
theorem bn_mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v59).slice (win1_6.rect t)).set ↔ _
  rw [View.set_slice_whole, Rect.mem_set_unit]
  exact Iff.rfl

/-- Row `r` of the output lies in the block of point `r / 2000`: the 50 blocks of 2000 rows tile the array. -/
theorem bn_cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, -, -, e60, e61⟩ := bn_idx_facts1 ⟨(i 0).val / 2000, ht⟩
  refine ⟨⟨(i 0).val / 2000, ht⟩, flush1_6 _, ?_⟩
  rw [bn_mem_blk1]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e61]; omega

/-- THE OUTPUT ARRAY of region 1 after its run is the reference chain of the arrays as the region finds them. -/
theorem bn_final1 (c : Dev nD) (b g bt rm rv : FVec Ideal Cert.ReferenceIdeal.S128 .f32)
    (hb : ∀ q : Fin 128, V c (Pipeline.arrRef spec1 1) (ix2 (0 : Fin 1) q) = b (ix1 q))
    (hg : ∀ q : Fin 128, V c (Pipeline.arrRef spec1 2) (ix2 (0 : Fin 1) q) = g (ix1 q))
    (hbt : ∀ q : Fin 128, V c (Pipeline.arrRef spec1 3) (ix2 (0 : Fin 1) q) = bt (ix1 q))
    (hrm : ∀ q : Fin 128, V c (Pipeline.arrRef spec1 4) (ix2 (0 : Fin 1) q) = rm (ix1 q))
    (hrv : ∀ q : Fin 128, V c (Pipeline.arrRef spec1 5) (ix2 (0 : Fin 1) q) = rv (ix1 q)) :
    (dat1 (F := Ideal) V c).arrAt 6 cfg1.N = refBn (V c (Pipeline.arrRef spec1 0)) b g bt rm rv :=
  (dat1 (F := Ideal) V c).arrAt_eq_of_cover 6 (refBn (V c (Pipeline.arrRef spec1 0)) b g bt rm rv)
    (fun t _ => bn_flushed_eq1 V c b g bt rm rv hb hg hbt hrm hrv t) bn_cover1

end Region1

/-! ### Region 3 (layer 2) -/

section Region3
variable (V : (c : Dev nD) → (b : Ref sig .tc) → Buf (Elt Ideal) ((c : Thread nD τ).loc b))

/-- The printed index maps of region 3, decided over its 50 points: the aggregated array and the output move down the
    rows with the point, the parameter rows stay at block (0, 0). -/
theorem bn_idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem bn_lt_N3 (t : Fin cfg3.N) : t.val < 50 := by
  have h := t.isLt; have hN : cfg3.N = 50 := N_3; omega

/-- Block `t` of the aggregated array is its rows `2000 t … 2000 t + 1999`. -/
theorem bn_iblk3_0_apply (c : Dev nD) (t : Fin cfg3.N) (p : Fin 2000) (q : Fin 128) (r : Fin 100000) (hr : r.val = 2000 * t.val + p.val) :
    (iblk3 V c 0 t : Vec Ideal S2000x128 .f32) (ix2 p q) = (V c (Pipeline.arrRef spec3 0) : Vec Ideal S100000x128 .f32) (ix2 r q) := by
  obtain ⟨e00, e01, -⟩ := bn_idx_facts3 t
  show V c (Pipeline.arrRef spec3 0) (((cfg3.win 0).blk t).view.emb (ix2 p q)) = _
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * q.val = q.val; omega

set_option maxHeartbeats 1000000 in
/-- Each parameter window's block, at every point, is row 0 of its [1,128] array. -/
theorem bn_iblk3_rows (c : Dev nD) (t : Fin cfg3.N) (q : Fin 128) :
    (iblk3 V c 1 t : Vec Ideal S1x128 .f32) (ix2 (0 : Fin 1) q) = (V c (Pipeline.arrRef spec3 1) : Vec Ideal S1x128 .f32) (ix2 (0 : Fin 1) q)
    ∧ (iblk3 V c 2 t : Vec Ideal S1x128 .f32) (ix2 (0 : Fin 1) q) = (V c (Pipeline.arrRef spec3 2) : Vec Ideal S1x128 .f32) (ix2 (0 : Fin 1) q)
    ∧ (iblk3 V c 3 t : Vec Ideal S1x128 .f32) (ix2 (0 : Fin 1) q) = (V c (Pipeline.arrRef spec3 3) : Vec Ideal S1x128 .f32) (ix2 (0 : Fin 1) q)
    ∧ (iblk3 V c 4 t : Vec Ideal S1x128 .f32) (ix2 (0 : Fin 1) q) = (V c (Pipeline.arrRef spec3 4) : Vec Ideal S1x128 .f32) (ix2 (0 : Fin 1) q)
    ∧ (iblk3 V c 5 t : Vec Ideal S1x128 .f32) (ix2 (0 : Fin 1) q) = (V c (Pipeline.arrRef spec3 5) : Vec Ideal S1x128 .f32) (ix2 (0 : Fin 1) q) := by
  obtain ⟨-, -, e10, e11, e20, e21, e30, e31, e40, e41, e50, e51, -⟩ := bn_idx_facts3 t
  refine ⟨?_, ?_, ?_, ?_, ?_⟩
  · show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show V c (Pipeline.arrRef spec3 2) (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show V c (Pipeline.arrRef spec3 3) (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show V c (Pipeline.arrRef spec3 4) (((cfg3.win 4).blk t).view.emb (ix2 (0 : Fin 1) q)) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  · show V c (Pipeline.arrRef spec3 5) (((cfg3.win 5).blk t).view.emb (ix2 (0 : Fin 1) q)) = _
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q.val = q.val; omega

/-- An entry of the output's block `t` sits in the array at row `2000 t + p`. -/
theorem bn_emb3_6 (t : Fin cfg3.N) (p : Fin 2000) (q : Fin 128) (r : Fin 100000) (hr : r.val = 2000 * t.val + p.val) :
    (((cfg3.win 6).blk t).view.emb (ix2 p q) : S100000x128.Idx) = ix2 r q := by
  obtain ⟨-, -, -, -, -, -, -, -, -, -, -, -, e60, e61⟩ := bn_idx_facts3 t
  funext a; apply Fin.ext
  match a with
  | ⟨0, _⟩ => show win3_6.index t (0 : Fin 2) * 2000 + 1 * p.val = r.val; omega
  | ⟨1, _⟩ => show win3_6.index t (1 : Fin 2) * 128 + 1 * q.val = q.val; omega

set_option maxHeartbeats 1000000 in
/-- WHAT POINT `t` WRITES BACK is block `t` of the reference chain of the arrays as the region finds them (the body is
    region 1's). -/
theorem bn_flushed_eq3 (c : Dev nD) (b g bt rm rv : FVec Ideal Cert.ReferenceIdeal.S128 .f32)
    (hb : ∀ q : Fin 128, V c (Pipeline.arrRef spec3 1) (ix2 (0 : Fin 1) q) = b (ix1 q))
    (hg : ∀ q : Fin 128, V c (Pipeline.arrRef spec3 2) (ix2 (0 : Fin 1) q) = g (ix1 q))
    (hbt : ∀ q : Fin 128, V c (Pipeline.arrRef spec3 3) (ix2 (0 : Fin 1) q) = bt (ix1 q))
    (hrm : ∀ q : Fin 128, V c (Pipeline.arrRef spec3 4) (ix2 (0 : Fin 1) q) = rm (ix1 q))
    (hrv : ∀ q : Fin 128, V c (Pipeline.arrRef spec3 5) (ix2 (0 : Fin 1) q) = rv (ix1 q))
    (t : Fin cfg3.N) :
    (dat3 (F := Ideal) V c).flushed 6 t
      = ((cfg3.win 6).blk t).view.read (Elt Ideal) (refBn (V c (Pipeline.arrRef spec3 0)) b g bt rm rv) := by
  show (cfg3.win 6).cut (grid3.coords t) ((dat3 V c).after 6 t) = _
  rw [after3_6]
  unfold out3_6
  rw [View.canon_unit_zero bn_hz, bn_pay3_eq]
  simp only [View.ld_unit_zero (S := S2000x128) bn_hz, View.ld_unit_zero (S := S1x128) bn_hz]
  have hN := bn_lt_N3 t
  funext j
  obtain ⟨p, q, rfl⟩ : ∃ (p : Fin 2000) (q : Fin 128), j = ix2 p q := ⟨j 0, j 1, eq_ix2 j⟩
  have hp : p.val < 2000 := p.isLt
  show k1_pay1 (F := Ideal) (iblk3 V c 0 t) (iblk3 V c 1 t) (iblk3 V c 2 t) (iblk3 V c 4 t) (iblk3 V c 5 t) (iblk3 V c 3 t) (ix2 p q)
    = refBn (V c (Pipeline.arrRef spec3 0)) b g bt rm rv (((cfg3.win 6).blk t).view.emb (ix2 p q))
  rw [bn_emb3_6 t p q ⟨2000 * t.val + p.val, by omega⟩ rfl]
  obtain ⟨r1, r2, r3, r4, r5⟩ := bn_iblk3_rows V c t q
  exact bn_entry_eq (V c (Pipeline.arrRef spec3 0)) b g bt rm rv (iblk3 V c 0 t) (iblk3 V c 1 t) (iblk3 V c 2 t) (iblk3 V c 3 t)
    (iblk3 V c 4 t) (iblk3 V c 5 t) p q ⟨2000 * t.val + p.val, by omega⟩ (bn_iblk3_0_apply V c t p q _ rfl)
    (r1.trans (hb q)) (r2.trans (hg q)) (r3.trans (hbt q)) (r4.trans (hrm q)) (r5.trans (hrv q))

/-- An index of the output array is in point `t`'s block iff each coordinate is in the block's range on its axis. -/
theorem bn_mem_blk3 (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v87).slice (win3_6.rect t)).set ↔ _
  rw [View.set_slice_whole, Rect.mem_set_unit]
  exact Iff.rfl

/-- Row `r` of the output lies in the block of point `r / 2000`: the 50 blocks of 2000 rows tile the array. -/
theorem bn_cover3 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 50 := N_3
  have ht : (i 0).val / 2000 < cfg3.N := by rw [hN]; omega
  obtain ⟨-, -, -, -, -, -, -, -, -, -, -, -, e60, e61⟩ := bn_idx_facts3 ⟨(i 0).val / 2000, ht⟩
  refine ⟨⟨(i 0).val / 2000, ht⟩, flush3_6 _, ?_⟩
  rw [bn_mem_blk3]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    rw [e61]; omega

/-- THE OUTPUT ARRAY of region 3 after its run is the reference chain of the arrays as the region finds them. -/
theorem bn_final3 (c : Dev nD) (b g bt rm rv : FVec Ideal Cert.ReferenceIdeal.S128 .f32)
    (hb : ∀ q : Fin 128, V c (Pipeline.arrRef spec3 1) (ix2 (0 : Fin 1) q) = b (ix1 q))
    (hg : ∀ q : Fin 128, V c (Pipeline.arrRef spec3 2) (ix2 (0 : Fin 1) q) = g (ix1 q))
    (hbt : ∀ q : Fin 128, V c (Pipeline.arrRef spec3 3) (ix2 (0 : Fin 1) q) = bt (ix1 q))
    (hrm : ∀ q : Fin 128, V c (Pipeline.arrRef spec3 4) (ix2 (0 : Fin 1) q) = rm (ix1 q))
    (hrv : ∀ q : Fin 128, V c (Pipeline.arrRef spec3 5) (ix2 (0 : Fin 1) q) = rv (ix1 q)) :
    (dat3 (F := Ideal) V c).arrAt 6 cfg3.N = refBn (V c (Pipeline.arrRef spec3 0)) b g bt rm rv :=
  (dat3 (F := Ideal) V c).arrAt_eq_of_cover 6 (refBn (V c (Pipeline.arrRef spec3 0)) b g bt rm rv)
    (fun t _ => bn_flushed_eq3 V c b g bt rm rv hb hg hbt hrm hrv t) bn_cover3

end Region3

/-! ### Region 5 (layer 3) -/

section Region5
variable (V : (c : Dev nD) → (b : Ref sig .tc) → Buf (Elt Ideal) ((c : Thread nD τ).loc b))

/-- The printed index maps of region 5, decided over its 50 points: the aggregated array and the output move down the
    rows with the point, the parameter rows stay at block (0, 0). -/
theorem bn_idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem bn_lt_N5 (t : Fin cfg5.N) : t.val < 50 := by
  have h := t.isLt; have hN : cfg5.N = 50 := N_5; omega

/-- Block `t` of the aggregated array is its rows `2000 t … 2000 t + 1999`. -/
theorem bn_iblk5_0_apply (c : Dev nD) (t : Fin cfg5.N) (p : Fin 2000) (q : Fin 128) (r : Fin 100000) (hr : r.val = 2000 * t.val + p.val) :
    (iblk5 V c 0 t : Vec Ideal S2000x128 .f32) (ix2 p q) = (V c (Pipeline.arrRef spec5 0) : Vec Ideal S100000x128 .f32) (ix2 r q) := by
  obtain ⟨e00, e01, -⟩ := bn_idx_facts5 t
  show V c (Pipeline.arrRef spec5 0) (((cfg5.win 0).blk t).view.emb (ix2 p q)) = _
  refine congrArg _ (funext fun a => Fin.ext ?_)
  match a with
  | ⟨0, _⟩ => show win5_0.index t (0 : Fin 2) * 2000 + 1 * p.val = r.val; omega
  | ⟨1, _⟩ => show win5_0.index t (1 : Fin 2) * 128 + 1 * q.val = q.val; omega

set_option maxHeartbeats 1000000 in
/-- Each parameter window's block, at every point, is row 0 of its [1,128] array. -/
theorem bn_iblk5_rows (c : Dev nD) (t : Fin cfg5.N) (q : Fin 128) :
    (iblk5 V c 1 t : Vec Ideal S1x128 .f32) (ix2 (0 : Fin 1) q) = (V c (Pipeline.arrRef spec5 1) : Vec Ideal S1x128 .f32) (ix2 (0 : Fin 1) q)
    ∧ (iblk5 V c 2 t : Vec Ideal S1x128 .f32) (ix2 (0 : Fin 1) q) = (V c (Pipeline.arrRef spec5 2) : Vec Ideal S1x128 .f32) (ix2 (0 : Fin 1) q)
    ∧ (iblk5 V c 3 t : Vec Ideal S1x128 .f32) (ix2 (0 : Fin 1) q) = (V c (Pipeline.arrRef spec5 3) : Vec Ideal S1x128 .f32) (ix2 (0 : Fin 1) q)
    ∧ (iblk5 V c 4 t : Vec Ideal S1x128 .f32) (ix2 (0 : Fin 1) q) = (V c (Pipeline.arrRef spec5 4) : Vec Ideal S1x128 .f32) (ix2 (0 : Fin 1) q)
    ∧ (iblk5 V c 5 t : Vec Ideal S1x128 .f32) (ix2 (0 : Fin 1) q) = (V c (Pipeline.arrRef spec5 5) : Vec Ideal S1x128 .f32) (ix2 (0 : Fin 1) q) := by
  obtain ⟨-, -, e10, e11, e20, e21, e30, e31, e40, e41, e50, e51, -⟩ := bn_idx_facts5 t
  refine ⟨?_, ?_, ?_, ?_, ?_⟩
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  · show V c (Pipeline.arrRef spec5 3) (((cfg5.win 3).blk t).view.emb (ix2 (0 : Fin 1) q)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show V c (Pipeline.arrRef spec5 4) (((cfg5.win 4).blk t).view.emb (ix2 (0 : Fin 1) q)) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega
  · show V c (Pipeline.arrRef spec5 5) (((cfg5.win 5).blk t).view.emb (ix2 (0 : Fin 1) q)) = _
    refine congrArg _ (funext fun a => Fin.ext ?_)
    match a with
    | ⟨0, _⟩ => show win5_5.index t (0 : Fin 2) * 1 + 1 * 0 = 0; omega
    | ⟨1, _⟩ => show win5_5.index t (1 : Fin 2) * 128 + 1 * q.val = q.val; omega

/-- An entry of the output's block `t` sits in the array at row `2000 t + p`. -/
theorem bn_emb5_6 (t : Fin cfg5.N) (p : Fin 2000) (q : Fin 128) (r : Fin 100000) (hr : r.val = 2000 * t.val + p.val) :
    (((cfg5.win 6).blk t).view.emb (ix2 p q) : S100000x128.Idx) = ix2 r q := by
  obtain ⟨-, -, -, -, -, -, -, -, -, -, -, -, e60, e61⟩ := bn_idx_facts5 t
  funext a; apply Fin.ext
  match a with
  | ⟨0, _⟩ => show win5_6.index t (0 : Fin 2) * 2000 + 1 * p.val = r.val; omega
  | ⟨1, _⟩ => show win5_6.index t (1 : Fin 2) * 128 + 1 * q.val = q.val; omega

set_option maxHeartbeats 1000000 in
/-- WHAT POINT `t` WRITES BACK is block `t` of the reference chain of the arrays as the region finds them (the body is
    region 1's). -/
theorem bn_flushed_eq5 (c : Dev nD) (b g bt rm rv : FVec Ideal Cert.ReferenceIdeal.S128 .f32)
    (hb : ∀ q : Fin 128, V c (Pipeline.arrRef spec5 1) (ix2 (0 : Fin 1) q) = b (ix1 q))
    (hg : ∀ q : Fin 128, V c (Pipeline.arrRef spec5 2) (ix2 (0 : Fin 1) q) = g (ix1 q))
    (hbt : ∀ q : Fin 128, V c (Pipeline.arrRef spec5 3) (ix2 (0 : Fin 1) q) = bt (ix1 q))
    (hrm : ∀ q : Fin 128, V c (Pipeline.arrRef spec5 4) (ix2 (0 : Fin 1) q) = rm (ix1 q))
    (hrv : ∀ q : Fin 128, V c (Pipeline.arrRef spec5 5) (ix2 (0 : Fin 1) q) = rv (ix1 q))
    (t : Fin cfg5.N) :
    (dat5 (F := Ideal) V c).flushed 6 t
      = ((cfg5.win 6).blk t).view.read (Elt Ideal) (refBn (V c (Pipeline.arrRef spec5 0)) b g bt rm rv) := by
  show (cfg5.win 6).cut (grid5.coords t) ((dat5 V c).after 6 t) = _
  rw [after5_6]
  unfold out5_6
  rw [View.canon_unit_zero bn_hz, bn_pay5_eq]
  simp only [View.ld_unit_zero (S := S2000x128) bn_hz, View.ld_unit_zero (S := S1x128) bn_hz]
  have hN := bn_lt_N5 t
  funext j
  obtain ⟨p, q, rfl⟩ : ∃ (p : Fin 2000) (q : Fin 128), j = ix2 p q := ⟨j 0, j 1, eq_ix2 j⟩
  have hp : p.val < 2000 := p.isLt
  show k1_pay1 (F := Ideal) (iblk5 V c 0 t) (iblk5 V c 1 t) (iblk5 V c 2 t) (iblk5 V c 4 t) (iblk5 V c 5 t) (iblk5 V c 3 t) (ix2 p q)
    = refBn (V c (Pipeline.arrRef spec5 0)) b g bt rm rv (((cfg5.win 6).blk t).view.emb (ix2 p q))
  rw [bn_emb5_6 t p q ⟨2000 * t.val + p.val, by omega⟩ rfl]
  obtain ⟨r1, r2, r3, r4, r5⟩ := bn_iblk5_rows V c t q
  exact bn_entry_eq (V c (Pipeline.arrRef spec5 0)) b g bt rm rv (iblk5 V c 0 t) (iblk5 V c 1 t) (iblk5 V c 2 t) (iblk5 V c 3 t)
    (iblk5 V c 4 t) (iblk5 V c 5 t) p q ⟨2000 * t.val + p.val, by omega⟩ (bn_iblk5_0_apply V c t p q _ rfl)
    (r1.trans (hb q)) (r2.trans (hg q)) (r3.trans (hbt q)) (r4.trans (hrm q)) (r5.trans (hrv q))

/-- An index of the output array is in point `t`'s block iff each coordinate is in the block's range on its axis. -/
theorem bn_mem_blk5 (t : Fin cfg5.N) (i : S100000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v115).slice (win5_6.rect t)).set ↔ _
  rw [View.set_slice_whole, Rect.mem_set_unit]
  exact Iff.rfl

/-- Row `r` of the output lies in the block of point `r / 2000`: the 50 blocks of 2000 rows tile the array. -/
theorem bn_cover5 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 50 := N_5
  have ht : (i 0).val / 2000 < cfg5.N := by rw [hN]; omega
  obtain ⟨-, -, -, -, -, -, -, -, -, -, -, -, e60, e61⟩ := bn_idx_facts5 ⟨(i 0).val / 2000, ht⟩
  refine ⟨⟨(i 0).val / 2000, ht⟩, flush5_6 _, ?_⟩
  rw [bn_mem_blk5]
  intro a
  match a with
  | ⟨0, _⟩ =>
    show win5_6.index ⟨(i 0).val / 2000, ht⟩ (0 : Fin 2) * 2000 ≤ (i 0).val ∧ (i 0).val < win5_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win5_6.index ⟨(i 0).val / 2000, ht⟩ (1 : Fin 2) * 128 ≤ (i 1).val ∧ (i 1).val < win5_6.index ⟨(i 0).val / 2000, ht⟩ (1 : Fin 2) * 128 + 128
    rw [e61]; omega

/-- THE OUTPUT ARRAY of region 5 after its run is the reference chain of the arrays as the region finds them. -/
theorem bn_final5 (c : Dev nD) (b g bt rm rv : FVec Ideal Cert.ReferenceIdeal.S128 .f32)
    (hb : ∀ q : Fin 128, V c (Pipeline.arrRef spec5 1) (ix2 (0 : Fin 1) q) = b (ix1 q))
    (hg : ∀ q : Fin 128, V c (Pipeline.arrRef spec5 2) (ix2 (0 : Fin 1) q) = g (ix1 q))
    (hbt : ∀ q : Fin 128, V c (Pipeline.arrRef spec5 3) (ix2 (0 : Fin 1) q) = bt (ix1 q))
    (hrm : ∀ q : Fin 128, V c (Pipeline.arrRef spec5 4) (ix2 (0 : Fin 1) q) = rm (ix1 q))
    (hrv : ∀ q : Fin 128, V c (Pipeline.arrRef spec5 5) (ix2 (0 : Fin 1) q) = rv (ix1 q)) :
    (dat5 (F := Ideal) V c).arrAt 6 cfg5.N = refBn (V c (Pipeline.arrRef spec5 0)) b g bt rm rv :=
  (dat5 (F := Ideal) V c).arrAt_eq_of_cover 6 (refBn (V c (Pipeline.arrRef spec5 0)) b g bt rm rv)
    (fun t _ => bn_flushed_eq5 V c b g bt rm rv hb hg hbt hrm hrv t) bn_cover5

end Region5

end Cert.KernelIdeal.Bridge

end
-- ==== Proof.Keep.lean ====
/-
  Buffers that a stretch of the program leaves alone.

  Every buffer of the program is written once. A stretch of host operations writes the buffers in its list and no
  other; a tiled region writes its own arrays and no other. So a buffer read at a later boundary valuation holds what
  it held at the boundary right after it was written, and an argument buffer holds its launch contents at every
  boundary. This module states the one-boundary step for each of the fifteen segments.
-/
import proofs.«129210_j46737834115716_2_alg».proof.Proof.Gen.KernelIdeal.Frame

set_option maxRecDepth 16384

noncomputable section

namespace Cert.KernelIdeal.Bridge

open Idealize.ShloMosaic Idealize.ShloMosaic.TcCoe Idealize.SL.Sem
open Cert.KernelIdeal Cert.KernelIdeal.Gen

variable {F : FTy → Type} [FloatOps F]

/-- A buffer in a list of references is, as a device buffer, in the list's image. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers the operations of `hostOps0` write. -/
def wr_hostOps0 : List (Ref sig .tc) := [main_v0, main_v1, main_v2, main_v3, main_v4, main_v5, main_v6, main_cst, main_v7, main_v8, main_cst_0, main_v9, main_v10, main_v11, main_cst_1, main_v12, main_v13, main_v14, main_cst_2]
theorem wr_hostOps0_spec : (hostOps0 : List (HloOp τ sig (Elt F))).Forall fun op => op.writes ⊆ ((wr_hostOps0).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The buffers the operations of `hostOps0_1` write. -/
def wr_hostOps0_1 : List (Ref sig .tc) := [main_call0_v0, main_call0_v1, main_v15]
theorem wr_hostOps0_1_spec : (hostOps0_1 : List (HloOp τ sig (Elt F))).Forall fun op => op.writes ⊆ ((wr_hostOps0_1).map (Proc.devRef (τ := τ) .tc)).toFinset :=
  ⟨single_sub (by decide), single_sub (by decide), single_sub (by decide)⟩

/-- The buffers the operations of `hostOps0_2` write. -/
def wr_hostOps0_2 : List (Ref sig .tc) := [main_c, main_v16, main_v17, main_c_3, main_v18, main_v19, main_v20, main_v21, main_v22, main_v23, main_c_4, main_v24, main_v25, main_c_5, main_v26, main_v27, main_v28, main_v29, main_v30, main_v31, main_v32, main_v33, main_v34, main_v35, main_v36, main_v37, main_v38, main_v39]
theorem wr_hostOps0_2_spec : (hostOps0_2 : List (HloOp τ sig (Elt F))).Forall fun op => op.writes ⊆ ((wr_hostOps0_2).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The buffers the operations of `hostOps1` write. -/
def wr_hostOps1 : List (Ref sig .tc) := [main_c_6, main_v41, main_v42, main_c_7, main_v43, main_v44, main_v45, main_v46, main_v47, main_v48, main_v49, main_v50, main_cst_8, main_v51, main_v52, main_v53, main_v54, main_v55, main_v56, main_v57, main_v58]
theorem wr_hostOps1_spec : (hostOps1 : List (HloOp τ sig (Elt F))).Forall fun op => op.writes ⊆ ((wr_hostOps1).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The buffers the operations of `hostOps2` write. -/
def wr_hostOps2 : List (Ref sig .tc) := [main_v60, main_v61, main_v62, main_v63, main_v64, main_v65, main_v66, main_v67]
theorem wr_hostOps2_spec : (hostOps2 : List (HloOp τ sig (Elt F))).Forall fun op => op.writes ⊆ ((wr_hostOps2).map (Proc.devRef (τ := τ) .tc)).toFinset :=
  ⟨single_sub (by decide), single_sub (by decide), single_sub (by decide), single_sub (by decide), single_sub (by decide), single_sub (by decide), single_sub (by decide), single_sub (by decide)⟩

/-- The buffers the operations of `hostOps3` write. -/
def wr_hostOps3 : List (Ref sig .tc) := [main_c_9, main_v69, main_v70, main_c_10, main_v71, main_v72, main_v73, main_v74, main_v75, main_v76, main_v77, main_v78, main_cst_11, main_v79, main_v80, main_v81, main_v82, main_v83, main_v84, main_v85, main_v86]
theorem wr_hostOps3_spec : (hostOps3 : List (HloOp τ sig (Elt F))).Forall fun op => op.writes ⊆ ((wr_hostOps3).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The buffers the operations of `hostOps4` write. -/
def wr_hostOps4 : List (Ref sig .tc) := [main_v88, main_v89, main_v90, main_v91, main_v92, main_v93, main_v94, main_v95]
theorem wr_hostOps4_spec : (hostOps4 : List (HloOp τ sig (Elt F))).Forall fun op => op.writes ⊆ ((wr_hostOps4).map (Proc.devRef (τ := τ) .tc)).toFinset :=
  ⟨single_sub (by decide), single_sub (by decide), single_sub (by decide), single_sub (by decide), single_sub (by decide), single_sub (by decide), single_sub (by decide), single_sub (by decide)⟩

/-- The buffers the operations of `hostOps5` write. -/
def wr_hostOps5 : List (Ref sig .tc) := [main_c_12, main_v97, main_v98, main_c_13, main_v99, main_v100, main_v101, main_v102, main_v103, main_v104, main_v105, main_v106, main_cst_14, main_v107, main_v108, main_v109, main_v110, main_v111, main_v112, main_v113, main_v114]
theorem wr_hostOps5_spec : (hostOps5 : List (HloOp τ sig (Elt F))).Forall fun op => op.writes ⊆ ((wr_hostOps5).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The buffers the operations of `hostOps6` write. -/
def wr_hostOps6 : List (Ref sig .tc) := [main_cst_15, main_v116, main_cst_16, main_v117, main_v118, main_v119, main_cst_17, main_v120, main_v121, main_v122, main_cst_18, main_v123, main_v124, main_v125, main_v126, main_v127, main_v128, main_v129, main_v130, main_v131]
theorem wr_hostOps6_spec : (hostOps6 : List (HloOp τ sig (Elt F))).Forall fun op => op.writes ⊆ ((wr_hostOps6).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

variable (m : (ℓ : Loc nD τ sig) → Buf (Elt F) ℓ) (ρ : Dev nD → PrngReg) (c : Dev nD)

/-- A buffer `hostOps0` does not write holds at boundary 1 what it held at boundary 0. -/
theorem down1 (b : Ref sig .tc) (hb : b ∉ wr_hostOps0) :
    W1 m ρ c (Proc.devRef .tc b) = W0 m ρ c (Proc.devRef .tc b) :=
  StableHlo.after_of_writes_sub hostOps0 (W0 m ρ c) wr_hostOps0_spec hb

/-- A buffer `hostOps0_1` does not write holds at boundary 2 what it held at boundary 1. -/
theorem down2 (b : Ref sig .tc) (hb : b ∉ wr_hostOps0_1) :
    W2 m ρ c (Proc.devRef .tc b) = W1 m ρ c (Proc.devRef .tc b) :=
  StableHlo.after_of_writes_sub hostOps0_1 (W1 m ρ c) wr_hostOps0_1_spec hb

/-- A buffer `hostOps0_2` does not write holds at boundary 3 what it held at boundary 2. -/
theorem down3 (b : Ref sig .tc) (hb : b ∉ wr_hostOps0_2) :
    W3 m ρ c (Proc.devRef .tc b) = W2 m ρ c (Proc.devRef .tc b) :=
  StableHlo.after_of_writes_sub hostOps0_2 (W2 m ρ c) wr_hostOps0_2_spec hb

/-- A buffer that is none of region 0's arrays holds at boundary 4 what it held at boundary 3. -/
theorem down4 (b : Ref sig .tc) (hb : ∀ w, Pipeline.arrRef spec0 w ≠ b) :
    W4 m ρ c (Proc.devRef .tc b) = W3 m ρ c (Proc.devRef .tc b) :=
  W4_of_ne m ρ c b hb

/-- A buffer `hostOps1` does not write holds at boundary 5 what it held at boundary 4. -/
theorem down5 (b : Ref sig .tc) (hb : b ∉ wr_hostOps1) :
    W5 m ρ c (Proc.devRef .tc b) = W4 m ρ c (Proc.devRef .tc b) :=
  StableHlo.after_of_writes_sub hostOps1 (W4 m ρ c) wr_hostOps1_spec hb

/-- A buffer that is none of region 1's arrays holds at boundary 6 what it held at boundary 5. -/
theorem down6 (b : Ref sig .tc) (hb : ∀ w, Pipeline.arrRef spec1 w ≠ b) :
    W6 m ρ c (Proc.devRef .tc b) = W5 m ρ c (Proc.devRef .tc b) :=
  W6_of_ne m ρ c b hb

/-- A buffer `hostOps2` does not write holds at boundary 7 what it held at boundary 6. -/
theorem down7 (b : Ref sig .tc) (hb : b ∉ wr_hostOps2) :
    W7 m ρ c (Proc.devRef .tc b) = W6 m ρ c (Proc.devRef .tc b) :=
  StableHlo.after_of_writes_sub hostOps2 (W6 m ρ c) wr_hostOps2_spec hb

/-- A buffer that is none of region 2's arrays holds at boundary 8 what it held at boundary 7. -/
theorem down8 (b : Ref sig .tc) (hb : ∀ w, Pipeline.arrRef spec2 w ≠ b) :
    W8 m ρ c (Proc.devRef .tc b) = W7 m ρ c (Proc.devRef .tc b) :=
  W8_of_ne m ρ c b hb

/-- A buffer `hostOps3` does not write holds at boundary 9 what it held at boundary 8. -/
theorem down9 (b : Ref sig .tc) (hb : b ∉ wr_hostOps3) :
    W9 m ρ c (Proc.devRef .tc b) = W8 m ρ c (Proc.devRef .tc b) :=
  StableHlo.after_of_writes_sub hostOps3 (W8 m ρ c) wr_hostOps3_spec hb

/-- A buffer that is none of region 3's arrays holds at boundary 10 what it held at boundary 9. -/
theorem down10 (b : Ref sig .tc) (hb : ∀ w, Pipeline.arrRef spec3 w ≠ b) :
    W10 m ρ c (Proc.devRef .tc b) = W9 m ρ c (Proc.devRef .tc b) :=
  W10_of_ne m ρ c b hb

/-- A buffer `hostOps4` does not write holds at boundary 11 what it held at boundary 10. -/
theorem down11 (b : Ref sig .tc) (hb : b ∉ wr_hostOps4) :
    W11 m ρ c (Proc.devRef .tc b) = W10 m ρ c (Proc.devRef .tc b) :=
  StableHlo.after_of_writes_sub hostOps4 (W10 m ρ c) wr_hostOps4_spec hb

/-- A buffer that is none of region 4's arrays holds at boundary 12 what it held at boundary 11. -/
theorem down12 (b : Ref sig .tc) (hb : ∀ w, Pipeline.arrRef spec4 w ≠ b) :
    W12 m ρ c (Proc.devRef .tc b) = W11 m ρ c (Proc.devRef .tc b) :=
  W12_of_ne m ρ c b hb

/-- A buffer `hostOps5` does not write holds at boundary 13 what it held at boundary 12. -/
theorem down13 (b : Ref sig .tc) (hb : b ∉ wr_hostOps5) :
    W13 m ρ c (Proc.devRef .tc b) = W12 m ρ c (Proc.devRef .tc b) :=
  StableHlo.after_of_writes_sub hostOps5 (W12 m ρ c) wr_hostOps5_spec hb

/-- A buffer that is none of region 5's arrays holds at boundary 14 what it held at boundary 13. -/
theorem down14 (b : Ref sig .tc) (hb : ∀ w, Pipeline.arrRef spec5 w ≠ b) :
    W14 m ρ c (Proc.devRef .tc b) = W13 m ρ c (Proc.devRef .tc b) :=
  W14_of_ne m ρ c b hb

/-- A buffer `hostOps6` does not write holds at boundary 15 what it held at boundary 14. -/
theorem down15 (b : Ref sig .tc) (hb : b ∉ wr_hostOps6) :
    W15 m ρ c (Proc.devRef .tc b) = W14 m ρ c (Proc.devRef .tc b) :=
  StableHlo.after_of_writes_sub hostOps6 (W14 m ρ c) wr_hostOps6_spec hb

end Cert.KernelIdeal.Bridge

end
-- ==== Proof.Persist.lean ====
/-
  Argument buffers and once-written buffers at later boundaries.

  An argument buffer is written by no segment, so at every boundary valuation it holds its launch contents. A buffer
  written by a host stretch holds, at any later boundary before the program ends, what it held right after that
  stretch. Each statement is the composition of the one-boundary steps from the boundary where the buffer is read
  back to the boundary where it was written (or to the launch).
-/
import proofs.«129210_j46737834115716_2_alg».proof.Proof.Keep
import Idealize.ShloMosaic.Lib.ValueIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem arg0_at3 : W3 m ρ c (Proc.devRef .tc main_arg0) = (m ((c.tc : Thread nD τ).loc main_arg0)) :=
  ((down3 m ρ c main_arg0 (by decide)).trans ((down2 m ρ c main_arg0 (by decide)).trans ((down1 m ρ c main_arg0 (by decide))))).trans rfl
theorem arg4_at3 : W3 m ρ c (Proc.devRef .tc main_arg4) = (m ((c.tc : Thread nD τ).loc main_arg4)) :=
  ((down3 m ρ c main_arg4 (by decide)).trans ((down2 m ρ c main_arg4 (by decide)).trans ((down1 m ρ c main_arg4 (by decide))))).trans rfl
theorem arg5_at4 : W4 m ρ c (Proc.devRef .tc main_arg5) = (m ((c.tc : Thread nD τ).loc main_arg5)) :=
  ((down4 m ρ c main_arg5 (by decide)).trans ((down3 m ρ c main_arg5 (by decide)).trans ((down2 m ρ c main_arg5 (by decide)).trans ((down1 m ρ c main_arg5 (by decide)))))).trans rfl
theorem arg10_at6 : W6 m ρ c (Proc.devRef .tc main_arg10) = (m ((c.tc : Thread nD τ).loc main_arg10)) :=
  ((down6 m ρ c main_arg10 (by decide)).trans ((down5 m ρ c main_arg10 (by decide)).trans ((down4 m ρ c main_arg10 (by decide)).trans ((down3 m ρ c main_arg10 (by decide)).trans ((down2 m ρ c main_arg10 (by decide)).trans ((down1 m ρ c main_arg10 (by decide)))))))).trans rfl
theorem arg11_at6 : W6 m ρ c (Proc.devRef .tc main_arg11) = (m ((c.tc : Thread nD τ).loc main_arg11)) :=
  ((down6 m ρ c main_arg11 (by decide)).trans ((down5 m ρ c main_arg11 (by decide)).trans ((down4 m ρ c main_arg11 (by decide)).trans ((down3 m ρ c main_arg11 (by decide)).trans ((down2 m ρ c main_arg11 (by decide)).trans ((down1 m ρ c main_arg11 (by decide)))))))).trans rfl
theorem arg12_at6 : W6 m ρ c (Proc.devRef .tc main_arg12) = (m ((c.tc : Thread nD τ).loc main_arg12)) :=
  ((down6 m ρ c main_arg12 (by decide)).trans ((down5 m ρ c main_arg12 (by decide)).trans ((down4 m ρ c main_arg12 (by decide)).trans ((down3 m ρ c main_arg12 (by decide)).trans ((down2 m ρ c main_arg12 (by decide)).trans ((down1 m ρ c main_arg12 (by decide)))))))).trans rfl
theorem arg13_at6 : W6 m ρ c (Proc.devRef .tc main_arg13) = (m ((c.tc : Thread nD τ).loc main_arg13)) :=
  ((down6 m ρ c main_arg13 (by decide)).trans ((down5 m ρ c main_arg13 (by decide)).trans ((down4 m ρ c main_arg13 (by decide)).trans ((down3 m ρ c main_arg13 (by decide)).trans ((down2 m ρ c main_arg13 (by decide)).trans ((down1 m ρ c main_arg13 (by decide)))))))).trans rfl
theorem arg6_at7 : W7 m ρ c (Proc.devRef .tc main_arg6) = (m ((c.tc : Thread nD τ).loc main_arg6)) :=
  ((down7 m ρ c main_arg6 (by decide)).trans ((down6 m ρ c main_arg6 (by decide)).trans ((down5 m ρ c main_arg6 (by decide)).trans ((down4 m ρ c main_arg6 (by decide)).trans ((down3 m ρ c main_arg6 (by decide)).trans ((down2 m ρ c main_arg6 (by decide)).trans ((down1 m ρ c main_arg6 (by decide))))))))).trans rfl
theorem arg7_at8 : W8 m ρ c (Proc.devRef .tc main_arg7) = (m ((c.tc : Thread nD τ).loc main_arg7)) :=
  ((down8 m ρ c main_arg7 (by decide)).trans ((down7 m ρ c main_arg7 (by decide)).trans ((down6 m ρ c main_arg7 (by decide)).trans ((down5 m ρ c main_arg7 (by decide)).trans ((down4 m ρ c main_arg7 (by decide)).trans ((down3 m ρ c main_arg7 (by decide)).trans ((down2 m ρ c main_arg7 (by decide)).trans ((down1 m ρ c main_arg7 (by decide)))))))))).trans rfl
theorem arg10_at10 : W10 m ρ c (Proc.devRef .tc main_arg10) = (m ((c.tc : Thread nD τ).loc main_arg10)) :=
  ((down10 m ρ c main_arg10 (by decide)).trans ((down9 m ρ c main_arg10 (by decide)).trans ((down8 m ρ c main_arg10 (by decide)).trans ((down7 m ρ c main_arg10 (by decide)).trans ((down6 m ρ c main_arg10 (by decide)).trans ((down5 m ρ c main_arg10 (by decide)).trans ((down4 m ρ c main_arg10 (by decide)).trans ((down3 m ρ c main_arg10 (by decide)).trans ((down2 m ρ c main_arg10 (by decide)).trans ((down1 m ρ c main_arg10 (by decide)))))))))))).trans rfl
theorem arg11_at10 : W10 m ρ c (Proc.devRef .tc main_arg11) = (m ((c.tc : Thread nD τ).loc main_arg11)) :=
  ((down10 m ρ c main_arg11 (by decide)).trans ((down9 m ρ c main_arg11 (by decide)).trans ((down8 m ρ c main_arg11 (by decide)).trans ((down7 m ρ c main_arg11 (by decide)).trans ((down6 m ρ c main_arg11 (by decide)).trans ((down5 m ρ c main_arg11 (by decide)).trans ((down4 m ρ c main_arg11 (by decide)).trans ((down3 m ρ c main_arg11 (by decide)).trans ((down2 m ρ c main_arg11 (by decide)).trans ((down1 m ρ c main_arg11 (by decide)))))))))))).trans rfl
theorem arg12_at10 : W10 m ρ c (Proc.devRef .tc main_arg12) = (m ((c.tc : Thread nD τ).loc main_arg12)) :=
  ((down10 m ρ c main_arg12 (by decide)).trans ((down9 m ρ c main_arg12 (by decide)).trans ((down8 m ρ c main_arg12 (by decide)).trans ((down7 m ρ c main_arg12 (by decide)).trans ((down6 m ρ c main_arg12 (by decide)).trans ((down5 m ρ c main_arg12 (by decide)).trans ((down4 m ρ c main_arg12 (by decide)).trans ((down3 m ρ c main_arg12 (by decide)).trans ((down2 m ρ c main_arg12 (by decide)).trans ((down1 m ρ c main_arg12 (by decide)))))))))))).trans rfl
theorem arg13_at10 : W10 m ρ c (Proc.devRef .tc main_arg13) = (m ((c.tc : Thread nD τ).loc main_arg13)) :=
  ((down10 m ρ c main_arg13 (by decide)).trans ((down9 m ρ c main_arg13 (by decide)).trans ((down8 m ρ c main_arg13 (by decide)).trans ((down7 m ρ c main_arg13 (by decide)).trans ((down6 m ρ c main_arg13 (by decide)).trans ((down5 m ρ c main_arg13 (by decide)).trans ((down4 m ρ c main_arg13 (by decide)).trans ((down3 m ρ c main_arg13 (by decide)).trans ((down2 m ρ c main_arg13 (by decide)).trans ((down1 m ρ c main_arg13 (by decide)))))))))))).trans rfl
theorem arg8_at11 : W11 m ρ c (Proc.devRef .tc main_arg8) = (m ((c.tc : Thread nD τ).loc main_arg8)) :=
  ((down11 m ρ c main_arg8 (by decide)).trans ((down10 m ρ c main_arg8 (by decide)).trans ((down9 m ρ c main_arg8 (by decide)).trans ((down8 m ρ c main_arg8 (by decide)).trans ((down7 m ρ c main_arg8 (by decide)).trans ((down6 m ρ c main_arg8 (by decide)).trans ((down5 m ρ c main_arg8 (by decide)).trans ((down4 m ρ c main_arg8 (by decide)).trans ((down3 m ρ c main_arg8 (by decide)).trans ((down2 m ρ c main_arg8 (by decide)).trans ((down1 m ρ c main_arg8 (by decide))))))))))))).trans rfl
theorem arg9_at12 : W12 m ρ c (Proc.devRef .tc main_arg9) = (m ((c.tc : Thread nD τ).loc main_arg9)) :=
  ((down12 m ρ c main_arg9 (by decide)).trans ((down11 m ρ c main_arg9 (by decide)).trans ((down10 m ρ c main_arg9 (by decide)).trans ((down9 m ρ c main_arg9 (by decide)).trans ((down8 m ρ c main_arg9 (by decide)).trans ((down7 m ρ c main_arg9 (by decide)).trans ((down6 m ρ c main_arg9 (by decide)).trans ((down5 m ρ c main_arg9 (by decide)).trans ((down4 m ρ c main_arg9 (by decide)).trans ((down3 m ρ c main_arg9 (by decide)).trans ((down2 m ρ c main_arg9 (by decide)).trans ((down1 m ρ c main_arg9 (by decide)))))))))))))).trans rfl
theorem arg3_at14 : W14 m ρ c (Proc.devRef .tc main_arg3) = (m ((c.tc : Thread nD τ).loc main_arg3)) :=
  ((down14 m ρ c main_arg3 (by decide)).trans ((down13 m ρ c main_arg3 (by decide)).trans ((down12 m ρ c main_arg3 (by decide)).trans ((down11 m ρ c main_arg3 (by decide)).trans ((down10 m ρ c main_arg3 (by decide)).trans ((down9 m ρ c main_arg3 (by decide)).trans ((down8 m ρ c main_arg3 (by decide)).trans ((down7 m ρ c main_arg3 (by decide)).trans ((down6 m ρ c main_arg3 (by decide)).trans ((down5 m ρ c main_arg3 (by decide)).trans ((down4 m ρ c main_arg3 (by decide)).trans ((down3 m ρ c main_arg3 (by decide)).trans ((down2 m ρ c main_arg3 (by decide)).trans ((down1 m ρ c main_arg3 (by decide)))))))))))))))).trans rfl
theorem arg14_at14 : W14 m ρ c (Proc.devRef .tc main_arg14) = (m ((c.tc : Thread nD τ).loc main_arg14)) :=
  ((down14 m ρ c main_arg14 (by decide)).trans ((down13 m ρ c main_arg14 (by decide)).trans ((down12 m ρ c main_arg14 (by decide)).trans ((down11 m ρ c main_arg14 (by decide)).trans ((down10 m ρ c main_arg14 (by decide)).trans ((down9 m ρ c main_arg14 (by decide)).trans ((down8 m ρ c main_arg14 (by decide)).trans ((down7 m ρ c main_arg14 (by decide)).trans ((down6 m ρ c main_arg14 (by decide)).trans ((down5 m ρ c main_arg14 (by decide)).trans ((down4 m ρ c main_arg14 (by decide)).trans ((down3 m ρ c main_arg14 (by decide)).trans ((down2 m ρ c main_arg14 (by decide)).trans ((down1 m ρ c main_arg14 (by decide)))))))))))))))).trans rfl
theorem arg15_at14 : W14 m ρ c (Proc.devRef .tc main_arg15) = (m ((c.tc : Thread nD τ).loc main_arg15)) :=
  ((down14 m ρ c main_arg15 (by decide)).trans ((down13 m ρ c main_arg15 (by decide)).trans ((down12 m ρ c main_arg15 (by decide)).trans ((down11 m ρ c main_arg15 (by decide)).trans ((down10 m ρ c main_arg15 (by decide)).trans ((down9 m ρ c main_arg15 (by decide)).trans ((down8 m ρ c main_arg15 (by decide)).trans ((down7 m ρ c main_arg15 (by decide)).trans ((down6 m ρ c main_arg15 (by decide)).trans ((down5 m ρ c main_arg15 (by decide)).trans ((down4 m ρ c main_arg15 (by decide)).trans ((down3 m ρ c main_arg15 (by decide)).trans ((down2 m ρ c main_arg15 (by decide)).trans ((down1 m ρ c main_arg15 (by decide)))))))))))))))).trans rfl
theorem v3_from4 : W4 m ρ c (Proc.devRef .tc main_v3) = W3 m ρ c (Proc.devRef .tc main_v3) :=
  (down4 m ρ c main_v3 (by decide))
theorem v3_from8 : W8 m ρ c (Proc.devRef .tc main_v3) = W3 m ρ c (Proc.devRef .tc main_v3) :=
  (down8 m ρ c main_v3 (by decide)).trans ((down7 m ρ c main_v3 (by decide)).trans ((down6 m ρ c main_v3 (by decide)).trans ((down5 m ρ c main_v3 (by decide)).trans ((down4 m ρ c main_v3 (by decide))))))
theorem v3_from12 : W12 m ρ c (Proc.devRef .tc main_v3) = W3 m ρ c (Proc.devRef .tc main_v3) :=
  (down12 m ρ c main_v3 (by decide)).trans ((down11 m ρ c main_v3 (by decide)).trans ((down10 m ρ c main_v3 (by decide)).trans ((down9 m ρ c main_v3 (by decide)).trans ((down8 m ρ c main_v3 (by decide)).trans ((down7 m ρ c main_v3 (by decide)).trans ((down6 m ρ c main_v3 (by decide)).trans ((down5 m ρ c main_v3 (by decide)).trans ((down4 m ρ c main_v3 (by decide))))))))))
theorem v6_from4 : W4 m ρ c (Proc.devRef .tc main_v6) = W3 m ρ c (Proc.devRef .tc main_v6) :=
  (down4 m ρ c main_v6 (by decide))
theorem v6_from8 : W8 m ρ c (Proc.devRef .tc main_v6) = W3 m ρ c (Proc.devRef .tc main_v6) :=
  (down8 m ρ c main_v6 (by decide)).trans ((down7 m ρ c main_v6 (by decide)).trans ((down6 m ρ c main_v6 (by decide)).trans ((down5 m ρ c main_v6 (by decide)).trans ((down4 m ρ c main_v6 (by decide))))))
theorem v6_from12 : W12 m ρ c (Proc.devRef .tc main_v6) = W3 m ρ c (Proc.devRef .tc main_v6) :=
  (down12 m ρ c main_v6 (by decide)).trans ((down11 m ρ c main_v6 (by decide)).trans ((down10 m ρ c main_v6 (by decide)).trans ((down9 m ρ c main_v6 (by decide)).trans ((down8 m ρ c main_v6 (by decide)).trans ((down7 m ρ c main_v6 (by decide)).trans ((down6 m ρ c main_v6 (by decide)).trans ((down5 m ρ c main_v6 (by decide)).trans ((down4 m ρ c main_v6 (by decide))))))))))
theorem v31_from4 : W4 m ρ c (Proc.devRef .tc main_v31) = W3 m ρ c (Proc.devRef .tc main_v31) :=
  (down4 m ρ c main_v31 (by decide))
theorem v31_from8 : W8 m ρ c (Proc.devRef .tc main_v31) = W3 m ρ c (Proc.devRef .tc main_v31) :=
  (down8 m ρ c main_v31 (by decide)).trans ((down7 m ρ c main_v31 (by decide)).trans ((down6 m ρ c main_v31 (by decide)).trans ((down5 m ρ c main_v31 (by decide)).trans ((down4 m ρ c main_v31 (by decide))))))
theorem v31_from12 : W12 m ρ c (Proc.devRef .tc main_v31) = W3 m ρ c (Proc.devRef .tc main_v31) :=
  (down12 m ρ c main_v31 (by decide)).trans ((down11 m ρ c main_v31 (by decide)).trans ((down10 m ρ c main_v31 (by decide)).trans ((down9 m ρ c main_v31 (by decide)).trans ((down8 m ρ c main_v31 (by decide)).trans ((down7 m ρ c main_v31 (by decide)).trans ((down6 m ρ c main_v31 (by decide)).trans ((down5 m ρ c main_v31 (by decide)).trans ((down4 m ρ c main_v31 (by decide))))))))))
theorem v33_from4 : W4 m ρ c (Proc.devRef .tc main_v33) = W3 m ρ c (Proc.devRef .tc main_v33) :=
  (down4 m ρ c main_v33 (by decide))
theorem v35_from4 : W4 m ρ c (Proc.devRef .tc main_v35) = W3 m ρ c (Proc.devRef .tc main_v35) :=
  (down4 m ρ c main_v35 (by decide))
theorem v37_from4 : W4 m ρ c (Proc.devRef .tc main_v37) = W3 m ρ c (Proc.devRef .tc main_v37) :=
  (down4 m ρ c main_v37 (by decide))
theorem v39_from4 : W4 m ρ c (Proc.devRef .tc main_v39) = W3 m ρ c (Proc.devRef .tc main_v39) :=
  (down4 m ρ c main_v39 (by decide))
theorem v59_from7 : W7 m ρ c (Proc.devRef .tc main_v59) = W6 m ρ c (Proc.devRef .tc main_v59) :=
  (down7 m ρ c main_v59 (by decide))
theorem v61_from8 : W8 m ρ c (Proc.devRef .tc main_v61) = W7 m ρ c (Proc.devRef .tc main_v61) :=
  (down8 m ρ c main_v61 (by decide))
theorem v63_from8 : W8 m ρ c (Proc.devRef .tc main_v63) = W7 m ρ c (Proc.devRef .tc main_v63) :=
  (down8 m ρ c main_v63 (by decide))
theorem v65_from8 : W8 m ρ c (Proc.devRef .tc main_v65) = W7 m ρ c (Proc.devRef .tc main_v65) :=
  (down8 m ρ c main_v65 (by decide))
theorem v67_from8 : W8 m ρ c (Proc.devRef .tc main_v67) = W7 m ρ c (Proc.devRef .tc main_v67) :=
  (down8 m ρ c main_v67 (by decide))
theorem v87_from11 : W11 m ρ c (Proc.devRef .tc main_v87) = W10 m ρ c (Proc.devRef .tc main_v87) :=
  (down11 m ρ c main_v87 (by decide))
theorem v89_from12 : W12 m ρ c (Proc.devRef .tc main_v89) = W11 m ρ c (Proc.devRef .tc main_v89) :=
  (down12 m ρ c main_v89 (by decide))
theorem v91_from12 : W12 m ρ c (Proc.devRef .tc main_v91) = W11 m ρ c (Proc.devRef .tc main_v91) :=
  (down12 m ρ c main_v91 (by decide))
theorem v93_from12 : W12 m ρ c (Proc.devRef .tc main_v93) = W11 m ρ c (Proc.devRef .tc main_v93) :=
  (down12 m ρ c main_v93 (by decide))
theorem v95_from12 : W12 m ρ c (Proc.devRef .tc main_v95) = W11 m ρ c (Proc.devRef .tc main_v95) :=
  (down12 m ρ c main_v95 (by decide))

end Cert.KernelIdeal.Bridge

end
-- ==== Proof.Stage3.lean ====
/-
  The host operations before the first region, read at the boundary where the first region is entered.

  Before any region runs the program computes, from the edge list and the edge weights, the source and destination
  index vectors with the self-loops appended, the symmetric normalisation of every edge, and the first layer's
  batch-norm parameter rows. These are the same host operations, in the same order, as the reference's first
  operations; each buffer is shown to hold the value the reference computes for the corresponding operation. The
  three stretches (before the masked-select call, the call, after it) are read one at a time.
-/
import proofs.«129210_j46737834115716_2_alg».proof.Proof.Keep
import proofs.«129210_j46737834115716_2_alg».proof.Proof.Gen.ReferenceIdeal.Read
import Idealize.ShloMosaic.Lib.StableHlo.Run
import Idealize.ShloMosaic.Lib.ValueIdx

set_option maxRecDepth 65536

noncomputable section

namespace Cert.KernelIdeal.Bridge

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

theorem S1_v3 : W1 m ρ c (Proc.devRef .tc main_v3) = val_main_v3 (F := Ideal) (m ((c.tc : Thread nD τ).loc main_arg1)) := by
  show StableHlo.after hostOps0 (W0 m ρ c) _ = _
  after_results_simp
  rfl
theorem S1_v6 : W1 m ρ c (Proc.devRef .tc main_v6) = val_main_v6 (F := Ideal) (m ((c.tc : Thread nD τ).loc main_arg1)) := by
  show StableHlo.after hostOps0 (W0 m ρ c) _ = _
  after_results_simp
  rfl
theorem S1_v8 : W1 m ρ c (Proc.devRef .tc main_v8) = val_main_v8 (F := Ideal) (m ((c.tc : Thread nD τ).loc main_arg2)) := by
  show StableHlo.after hostOps0 (W0 m ρ c) _ = _
  after_results_simp
  rfl
theorem S1_v13 : W1 m ρ c (Proc.devRef .tc main_v13) = val_main_v13 (F := Ideal) (m ((c.tc : Thread nD τ).loc main_arg1)) (m ((c.tc : Thread nD τ).loc main_arg2)) := by
  show StableHlo.after hostOps0 (W0 m ρ c) _ = _
  after_results_simp
  rfl
theorem S1_v14 : W1 m ρ c (Proc.devRef .tc main_v14) = val_main_v14 (F := Ideal) (m ((c.tc : Thread nD τ).loc main_arg1)) (m ((c.tc : Thread nD τ).loc main_arg2)) := by
  show StableHlo.after hostOps0 (W0 m ρ c) _ = _
  after_results_simp
  rfl
theorem S1_cst_2 : W1 m ρ c (Proc.devRef .tc main_cst_2) = val_main_cst_2 (F := Ideal)  := by
  show StableHlo.after hostOps0 (W0 m ρ c) _ = _
  after_results_simp
  rfl
/-- The masked select of the call, for any contents of the buffers it reads. -/
theorem where_call (V : Valuation τ sig (Elt Ideal)) :
    StableHlo.after hostOps0_1 V (Proc.devRef .tc main_v15)
      = select (V (Proc.devRef .tc main_v13)) (V (Proc.devRef .tc main_v14)) (broadcastInDim S100000 ![] bcast_S_S100000 (V (Proc.devRef .tc main_cst_2))) := by
  after_results_simp
  rfl
theorem S2_v15 : W2 m ρ c (Proc.devRef .tc main_v15) = val_main_v15 (F := Ideal) (m ((c.tc : Thread nD τ).loc main_arg1)) (m ((c.tc : Thread nD τ).loc main_arg2)) := by
  refine (where_call (W1 m ρ c)).trans ?_
  rw [S1_v13 m ρ c, S1_v14 m ρ c, S1_cst_2 m ρ c]
  rfl
theorem v3_at2 : W2 m ρ c (Proc.devRef .tc main_v3) = val_main_v3 (F := Ideal) (m ((c.tc : Thread nD τ).loc main_arg1)) := (down2 m ρ c main_v3 (by decide)).trans (S1_v3 m ρ c)
theorem v6_at2 : W2 m ρ c (Proc.devRef .tc main_v6) = val_main_v6 (F := Ideal) (m ((c.tc : Thread nD τ).loc main_arg1)) := (down2 m ρ c main_v6 (by decide)).trans (S1_v6 m ρ c)
theorem v8_at2 : W2 m ρ c (Proc.devRef .tc main_v8) = val_main_v8 (F := Ideal) (m ((c.tc : Thread nD τ).loc main_arg2)) := (down2 m ρ c main_v8 (by decide)).trans (S1_v8 m ρ c)
theorem S3_v31 : W3 m ρ c (Proc.devRef .tc main_v31) = val_main_v31 (F := Ideal) (m ((c.tc : Thread nD τ).loc main_arg1)) (m ((c.tc : Thread nD τ).loc main_arg2)) := by
  show StableHlo.after hostOps0_2 (W2 m ρ c) _ = _
  generalize hV : W2 m ρ c = V
  after_results_simp
  subst hV
  rw [v3_at2 m ρ c, v6_at2 m ρ c, v8_at2 m ρ c, S2_v15 m ρ c]
  rfl
theorem S3_v33 : W3 m ρ c (Proc.devRef .tc main_v33) = val_main_v33 (F := Ideal) (m ((c.tc : Thread nD τ).loc main_arg10)) := by
  show StableHlo.after hostOps0_2 (W2 m ρ c) _ = _
  generalize hV : W2 m ρ c = V
  after_results_simp
  subst hV
  rw [show W2 m ρ c (Proc.devRef .tc main_arg10) = (m ((c.tc : Thread nD τ).loc main_arg10)) from ((down2 m ρ c main_arg10 (by decide)).trans (down1 m ρ c main_arg10 (by decide))).trans rfl]
  rfl
theorem S3_v35 : W3 m ρ c (Proc.devRef .tc main_v35) = val_main_v35 (F := Ideal) (m ((c.tc : Thread nD τ).loc main_arg11)) := by
  show StableHlo.after hostOps0_2 (W2 m ρ c) _ = _
  generalize hV : W2 m ρ c = V
  after_results_simp
  subst hV
  rw [show W2 m ρ c (Proc.devRef .tc main_arg11) = (m ((c.tc : Thread nD τ).loc main_arg11)) from ((down2 m ρ c main_arg11 (by decide)).trans (down1 m ρ c main_arg11 (by decide))).trans rfl]
  rfl
theorem S3_v37 : W3 m ρ c (Proc.devRef .tc main_v37) = val_main_v37 (F := Ideal) (m ((c.tc : Thread nD τ).loc main_arg12)) := by
  show StableHlo.after hostOps0_2 (W2 m ρ c) _ = _
  generalize hV : W2 m ρ c = V
  after_results_simp
  subst hV
  rw [show W2 m ρ c (Proc.devRef .tc main_arg12) = (m ((c.tc : Thread nD τ).loc main_arg12)) from ((down2 m ρ c main_arg12 (by decide)).trans (down1 m ρ c main_arg12 (by decide))).trans rfl]
  rfl
theorem S3_v39 : W3 m ρ c (Proc.devRef .tc main_v39) = val_main_v39 (F := Ideal) (m ((c.tc : Thread nD τ).loc main_arg13)) := by
  show StableHlo.after hostOps0_2 (W2 m ρ c) _ = _
  generalize hV : W2 m ρ c = V
  after_results_simp
  subst hV
  rw [show W2 m ρ c (Proc.devRef .tc main_arg13) = (m ((c.tc : Thread nD τ).loc main_arg13)) from ((down2 m ρ c main_arg13 (by decide)).trans (down1 m ρ c main_arg13 (by decide))).trans rfl]
  rfl
theorem S3_v3 : W3 m ρ c (Proc.devRef .tc main_v3) = val_main_v3 (F := Ideal) (m ((c.tc : Thread nD τ).loc main_arg1)) := (down3 m ρ c main_v3 (by decide)).trans (v3_at2 m ρ c)
theorem S3_v6 : W3 m ρ c (Proc.devRef .tc main_v6) = val_main_v6 (F := Ideal) (m ((c.tc : Thread nD τ).loc main_arg1)) := (down3 m ρ c main_v6 (by decide)).trans (v6_at2 m ρ c)

end Cert.KernelIdeal.Bridge

end
-- ==== Proof.Layer1.lean ====
/-
  Layer 1 of the graph network on the kernel side, boundary by boundary.

  The layer is: a linear region (input times weights), a host stretch (the edge aggregation and the batch-norm
  parameters laid out as one-row arrays), a batch-norm region, and a host stretch that cuts the next layer's
  parameters out of the stacked argument arrays. Each buffer the kernel side computes is shown equal to the value the
  reference computes for the corresponding operation, as a function of the argument arrays.
-/
import proofs.«129210_j46737834115716_2_alg».proof.Proof.LinRegion
import proofs.«129210_j46737834115716_2_alg».proof.Proof.BnRegion
import proofs.«129210_j46737834115716_2_alg».proof.Proof.Persist
import proofs.«129210_j46737834115716_2_alg».proof.Proof.Stage3
import Idealize.ShloMosaic.Lib.StableHlo.Run
import Idealize.ShloMosaic.Lib.ValueLayout

set_option maxRecDepth 65536

noncomputable section

namespace Cert.KernelIdeal.Bridge

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-- The linear region's output array is the reference's product of the layer's input with the layer's weights. -/
theorem R4_v40 : W4 m ρ c (Proc.devRef .tc main_v40) = val_main_v40 (F := Ideal) (m ((c.tc : Thread nD τ).loc main_arg0)) (m ((c.tc : Thread nD τ).loc main_arg4)) := by
  refine (W4_arr m ρ c 2).trans ?_
  rw [lin_final0 (V3 m ρ) c]
  show Host.dotGeneral (F := Ideal) _ none (W3 m ρ c (Proc.devRef .tc main_arg0)) (W3 m ρ c (Proc.devRef .tc main_arg4)) = _
  rw [arg0_at3 m ρ c, arg4_at3 m ρ c]
  rfl
theorem v3_at4 : W4 m ρ c (Proc.devRef .tc main_v3) = val_main_v3 (F := Ideal) (m ((c.tc : Thread nD τ).loc main_arg1)) := (v3_from4 m ρ c).trans (S3_v3 m ρ c)
theorem v6_at4 : W4 m ρ c (Proc.devRef .tc main_v6) = val_main_v6 (F := Ideal) (m ((c.tc : Thread nD τ).loc main_arg1)) := (v6_from4 m ρ c).trans (S3_v6 m ρ c)
theorem v31_at4 : W4 m ρ c (Proc.devRef .tc main_v31) = val_main_v31 (F := Ideal) (m ((c.tc : Thread nD τ).loc main_arg1)) (m ((c.tc : Thread nD τ).loc main_arg2)) := (v31_from4 m ρ c).trans (S3_v31 m ρ c)
theorem v33_at4 : W4 m ρ c (Proc.devRef .tc main_v33) = val_main_v33 (F := Ideal) (m ((c.tc : Thread nD τ).loc main_arg10)) := (v33_from4 m ρ c).trans (S3_v33 m ρ c)
theorem v35_at4 : W4 m ρ c (Proc.devRef .tc main_v35) = val_main_v35 (F := Ideal) (m ((c.tc : Thread nD τ).loc main_arg11)) := (v35_from4 m ρ c).trans (S3_v35 m ρ c)
theorem v37_at4 : W4 m ρ c (Proc.devRef .tc main_v37) = val_main_v37 (F := Ideal) (m ((c.tc : Thread nD τ).loc main_arg12)) := (v37_from4 m ρ c).trans (S3_v37 m ρ c)
theorem v39_at4 : W4 m ρ c (Proc.devRef .tc main_v39) = val_main_v39 (F := Ideal) (m ((c.tc : Thread nD τ).loc main_arg13)) := (v39_from4 m ρ c).trans (S3_v39 m ρ c)

/-- The aggregation over the edges (gather by source, scale by the edge norm, scatter-add by destination) of the
    linear region's output is the reference's, the same host operations on equal operands. -/
theorem S5_v53 : W5 m ρ c (Proc.devRef .tc main_v53) = val_main_v53 (F := Ideal) (m ((c.tc : Thread nD τ).loc main_arg0)) (m ((c.tc : Thread nD τ).loc main_arg1)) (m ((c.tc : Thread nD τ).loc main_arg2)) (m ((c.tc : Thread nD τ).loc main_arg4)) := by
  show StableHlo.after hostOps1 (W4 m ρ c) _ = _
  after_results_simp
  rw [v3_at4 m ρ c, v6_at4 m ρ c, v31_at4 m ρ c, R4_v40 m ρ c]
  rfl
theorem S5_v54 (q : Fin 128) : (W5 m ρ c (Proc.devRef .tc main_v54) : S1x128.Idx → Ideal .f32) (ix2 0 q) = ((m ((c.tc : Thread nD τ).loc main_arg5)) : Cert.ReferenceIdeal.S128.Idx → Ideal .f32) (ix1 q) := by
  show (StableHlo.after hostOps1 (W4 m ρ c) (Proc.devRef .tc main_v54) : S1x128.Idx → Ideal .f32) (ix2 0 q) = _
  after_results_simp
  rw [arg5_at4 m ρ c]
  exact shapeCast_a_1a_apply _ _ 0 q
theorem S5_v55 (q : Fin 128) : (W5 m ρ c (Proc.devRef .tc main_v55) : S1x128.Idx → Ideal .f32) (ix2 0 q) = ((val_main_v33 (F := Ideal) (m ((c.tc : Thread nD τ).loc main_arg10))) : Cert.ReferenceIdeal.S128.Idx → Ideal .f32) (ix1 q) := by
  show (StableHlo.after hostOps1 (W4 m ρ c) (Proc.devRef .tc main_v55) : S1x128.Idx → Ideal .f32) (ix2 0 q) = _
  after_results_simp
  rw [v33_at4 m ρ c]
  exact shapeCast_a_1a_apply _ _ 0 q
theorem S5_v56 (q : Fin 128) : (W5 m ρ c (Proc.devRef .tc main_v56) : S1x128.Idx → Ideal .f32) (ix2 0 q) = ((val_main_v35 (F := Ideal) (m ((c.tc : Thread nD τ).loc main_arg11))) : Cert.ReferenceIdeal.S128.Idx → Ideal .f32) (ix1 q) := by
  show (StableHlo.after hostOps1 (W4 m ρ c) (Proc.devRef .tc main_v56) : S1x128.Idx → Ideal .f32) (ix2 0 q) = _
  after_results_simp
  rw [v35_at4 m ρ c]
  exact shapeCast_a_1a_apply _ _ 0 q
theorem S5_v57 (q : Fin 128) : (W5 m ρ c (Proc.devRef .tc main_v57) : S1x128.Idx → Ideal .f32) (ix2 0 q) = ((val_main_v37 (F := Ideal) (m ((c.tc : Thread nD τ).loc main_arg12))) : Cert.ReferenceIdeal.S128.Idx → Ideal .f32) (ix1 q) := by
  show (StableHlo.after hostOps1 (W4 m ρ c) (Proc.devRef .tc main_v57) : S1x128.Idx → Ideal .f32) (ix2 0 q) = _
  after_results_simp
  rw [v37_at4 m ρ c]
  exact shapeCast_a_1a_apply _ _ 0 q
theorem S5_v58 (q : Fin 128) : (W5 m ρ c (Proc.devRef .tc main_v58) : S1x128.Idx → Ideal .f32) (ix2 0 q) = ((val_main_v39 (F := Ideal) (m ((c.tc : Thread nD τ).loc main_arg13))) : Cert.ReferenceIdeal.S128.Idx → Ideal .f32) (ix1 q) := by
  show (StableHlo.after hostOps1 (W4 m ρ c) (Proc.devRef .tc main_v58) : S1x128.Idx → Ideal .f32) (ix2 0 q) = _
  after_results_simp
  rw [v39_at4 m ρ c]
  exact shapeCast_a_1a_apply _ _ 0 q

/-- The batch-norm region's output array is the reference's bias, normalisation and rectifier of the aggregate. -/
theorem R6_v59 : W6 m ρ c (Proc.devRef .tc main_v59) = val_main_v72 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) := by
  refine (W6_arr m ρ c 6).trans ?_
  rw [bn_final1 (V5 m ρ) c (m ((c.tc : Thread nD τ).loc main_arg5)) (val_main_v33 (F := Ideal) (m ((c.tc : Thread nD τ).loc main_arg10))) (val_main_v35 (F := Ideal) (m ((c.tc : Thread nD τ).loc main_arg11))) (val_main_v37 (F := Ideal) (m ((c.tc : Thread nD τ).loc main_arg12))) (val_main_v39 (F := Ideal) (m ((c.tc : Thread nD τ).loc main_arg13)))
    (S5_v54 m ρ c) (S5_v55 m ρ c) (S5_v56 m ρ c) (S5_v57 m ρ c) (S5_v58 m ρ c), refBn_v72]
  show refBn (W5 m ρ c (Proc.devRef .tc main_v53)) _ _ _ _ _ = _
  rw [S5_v53 m ρ c]
theorem S7_v61 : W7 m ρ c (Proc.devRef .tc main_v61) = val_main_v74 (F := Ideal) (m ((c.tc : Thread nD τ).loc main_arg10)) := by
  show StableHlo.after hostOps2 (W6 m ρ c) _ = _
  after_results_simp
  rw [arg10_at6 m ρ c]
  rfl
theorem S7_v63 : W7 m ρ c (Proc.devRef .tc main_v63) = val_main_v76 (F := Ideal) (m ((c.tc : Thread nD τ).loc main_arg11)) := by
  show StableHlo.after hostOps2 (W6 m ρ c) _ = _
  after_results_simp
  rw [arg11_at6 m ρ c]
  rfl
theorem S7_v65 : W7 m ρ c (Proc.devRef .tc main_v65) = val_main_v78 (F := Ideal) (m ((c.tc : Thread nD τ).loc main_arg12)) := by
  show StableHlo.after hostOps2 (W6 m ρ c) _ = _
  after_results_simp
  rw [arg12_at6 m ρ c]
  rfl
theorem S7_v67 : W7 m ρ c (Proc.devRef .tc main_v67) = val_main_v80 (F := Ideal) (m ((c.tc : Thread nD τ).loc main_arg13)) := by
  show StableHlo.after hostOps2 (W6 m ρ c) _ = _
  after_results_simp
  rw [arg13_at6 m ρ c]
  rfl

end Cert.KernelIdeal.Bridge

end
-- ==== Proof.Layer2.lean ====
/-
  Layer 2 of the graph network on the kernel side, boundary by boundary.

  The layer is: a linear region (input times weights), a host stretch (the edge aggregation and the batch-norm
  parameters laid out as one-row arrays), a batch-norm region, and a host stretch that cuts the next layer's
  parameters out of the stacked argument arrays. Each buffer the kernel side computes is shown equal to the value the
  reference computes for the corresponding operation, as a function of the argument arrays.
-/
import proofs.«129210_j46737834115716_2_alg».proof.Proof.LinRegion
import proofs.«129210_j46737834115716_2_alg».proof.Proof.BnRegion
import proofs.«129210_j46737834115716_2_alg».proof.Proof.Persist
import proofs.«129210_j46737834115716_2_alg».proof.Proof.Layer1
import Idealize.ShloMosaic.Lib.StableHlo.Run
import Idealize.ShloMosaic.Lib.ValueLayout

set_option maxRecDepth 65536

noncomputable section

namespace Cert.KernelIdeal.Bridge

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-- The previous layer's output, read when the linear region is entered. -/
theorem v59_at7 : W7 m ρ c (Proc.devRef .tc main_v59) = val_main_v72 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) :=
  (v59_from7 m ρ c).trans (R6_v59 m ρ c)

/-- The linear region's output array is the reference's product of the layer's input with the layer's weights. -/
theorem R8_v68 : W8 m ρ c (Proc.devRef .tc main_v68) = val_main_v81 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) := by
  refine (W8_arr m ρ c 2).trans ?_
  rw [lin_final2 (V7 m ρ) c]
  show Host.dotGeneral (F := Ideal) _ none (W7 m ρ c (Proc.devRef .tc main_v59)) (W7 m ρ c (Proc.devRef .tc main_arg6)) = _
  rw [v59_at7 m ρ c, arg6_at7 m ρ c]
  rfl
theorem v3_at8 : W8 m ρ c (Proc.devRef .tc main_v3) = val_main_v3 (F := Ideal) (m ((c.tc : Thread nD τ).loc main_arg1)) := (v3_from8 m ρ c).trans (S3_v3 m ρ c)
theorem v6_at8 : W8 m ρ c (Proc.devRef .tc main_v6) = val_main_v6 (F := Ideal) (m ((c.tc : Thread nD τ).loc main_arg1)) := (v6_from8 m ρ c).trans (S3_v6 m ρ c)
theorem v31_at8 : W8 m ρ c (Proc.devRef .tc main_v31) = val_main_v31 (F := Ideal) (m ((c.tc : Thread nD τ).loc main_arg1)) (m ((c.tc : Thread nD τ).loc main_arg2)) := (v31_from8 m ρ c).trans (S3_v31 m ρ c)
theorem v61_at8 : W8 m ρ c (Proc.devRef .tc main_v61) = val_main_v74 (F := Ideal) (m ((c.tc : Thread nD τ).loc main_arg10)) := (v61_from8 m ρ c).trans (S7_v61 m ρ c)
theorem v63_at8 : W8 m ρ c (Proc.devRef .tc main_v63) = val_main_v76 (F := Ideal) (m ((c.tc : Thread nD τ).loc main_arg11)) := (v63_from8 m ρ c).trans (S7_v63 m ρ c)
theorem v65_at8 : W8 m ρ c (Proc.devRef .tc main_v65) = val_main_v78 (F := Ideal) (m ((c.tc : Thread nD τ).loc main_arg12)) := (v65_from8 m ρ c).trans (S7_v65 m ρ c)
theorem v67_at8 : W8 m ρ c (Proc.devRef .tc main_v67) = val_main_v80 (F := Ideal) (m ((c.tc : Thread nD τ).loc main_arg13)) := (v67_from8 m ρ c).trans (S7_v67 m ρ c)

/-- The aggregation over the edges (gather by source, scale by the edge norm, scatter-add by destination) of the
    linear region's output is the reference's, the same host operations on equal operands. -/
theorem S9_v81 : W9 m ρ c (Proc.devRef .tc main_v81) = val_main_v94 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) := by
  show StableHlo.after hostOps3 (W8 m ρ c) _ = _
  after_results_simp
  rw [v3_at8 m ρ c, v6_at8 m ρ c, v31_at8 m ρ c, R8_v68 m ρ c]
  rfl
theorem S9_v82 (q : Fin 128) : (W9 m ρ c (Proc.devRef .tc main_v82) : S1x128.Idx → Ideal .f32) (ix2 0 q) = ((m ((c.tc : Thread nD τ).loc main_arg7)) : Cert.ReferenceIdeal.S128.Idx → Ideal .f32) (ix1 q) := by
  show (StableHlo.after hostOps3 (W8 m ρ c) (Proc.devRef .tc main_v82) : S1x128.Idx → Ideal .f32) (ix2 0 q) = _
  after_results_simp
  rw [arg7_at8 m ρ c]
  exact shapeCast_a_1a_apply _ _ 0 q
theorem S9_v83 (q : Fin 128) : (W9 m ρ c (Proc.devRef .tc main_v83) : S1x128.Idx → Ideal .f32) (ix2 0 q) = ((val_main_v74 (F := Ideal) (m ((c.tc : Thread nD τ).loc main_arg10))) : Cert.ReferenceIdeal.S128.Idx → Ideal .f32) (ix1 q) := by
  show (StableHlo.after hostOps3 (W8 m ρ c) (Proc.devRef .tc main_v83) : S1x128.Idx → Ideal .f32) (ix2 0 q) = _
  after_results_simp
  rw [v61_at8 m ρ c]
  exact shapeCast_a_1a_apply _ _ 0 q
theorem S9_v84 (q : Fin 128) : (W9 m ρ c (Proc.devRef .tc main_v84) : S1x128.Idx → Ideal .f32) (ix2 0 q) = ((val_main_v76 (F := Ideal) (m ((c.tc : Thread nD τ).loc main_arg11))) : Cert.ReferenceIdeal.S128.Idx → Ideal .f32) (ix1 q) := by
  show (StableHlo.after hostOps3 (W8 m ρ c) (Proc.devRef .tc main_v84) : S1x128.Idx → Ideal .f32) (ix2 0 q) = _
  after_results_simp
  rw [v63_at8 m ρ c]
  exact shapeCast_a_1a_apply _ _ 0 q
theorem S9_v85 (q : Fin 128) : (W9 m ρ c (Proc.devRef .tc main_v85) : S1x128.Idx → Ideal .f32) (ix2 0 q) = ((val_main_v78 (F := Ideal) (m ((c.tc : Thread nD τ).loc main_arg12))) : Cert.ReferenceIdeal.S128.Idx → Ideal .f32) (ix1 q) := by
  show (StableHlo.after hostOps3 (W8 m ρ c) (Proc.devRef .tc main_v85) : S1x128.Idx → Ideal .f32) (ix2 0 q) = _
  after_results_simp
  rw [v65_at8 m ρ c]
  exact shapeCast_a_1a_apply _ _ 0 q
theorem S9_v86 (q : Fin 128) : (W9 m ρ c (Proc.devRef .tc main_v86) : S1x128.Idx → Ideal .f32) (ix2 0 q) = ((val_main_v80 (F := Ideal) (m ((c.tc : Thread nD τ).loc main_arg13))) : Cert.ReferenceIdeal.S128.Idx → Ideal .f32) (ix1 q) := by
  show (StableHlo.after hostOps3 (W8 m ρ c) (Proc.devRef .tc main_v86) : S1x128.Idx → Ideal .f32) (ix2 0 q) = _
  after_results_simp
  rw [v67_at8 m ρ c]
  exact shapeCast_a_1a_apply _ _ 0 q

/-- The batch-norm region's output array is the reference's bias, normalisation and rectifier of the aggregate. -/
theorem R10_v87 : W10 m ρ c (Proc.devRef .tc main_v87) = val_main_v113 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) := by
  refine (W10_arr m ρ c 6).trans ?_
  rw [bn_final3 (V9 m ρ) c (m ((c.tc : Thread nD τ).loc main_arg7)) (val_main_v74 (F := Ideal) (m ((c.tc : Thread nD τ).loc main_arg10))) (val_main_v76 (F := Ideal) (m ((c.tc : Thread nD τ).loc main_arg11))) (val_main_v78 (F := Ideal) (m ((c.tc : Thread nD τ).loc main_arg12))) (val_main_v80 (F := Ideal) (m ((c.tc : Thread nD τ).loc main_arg13)))
    (S9_v82 m ρ c) (S9_v83 m ρ c) (S9_v84 m ρ c) (S9_v85 m ρ c) (S9_v86 m ρ c), refBn_v113]
  show refBn (W9 m ρ c (Proc.devRef .tc main_v81)) _ _ _ _ _ = _
  rw [S9_v81 m ρ c]
theorem S11_v89 : W11 m ρ c (Proc.devRef .tc main_v89) = val_main_v115 (F := Ideal) (m ((c.tc : Thread nD τ).loc main_arg10)) := by
  show StableHlo.after hostOps4 (W10 m ρ c) _ = _
  after_results_simp
  rw [arg10_at10 m ρ c]
  rfl
theorem S11_v91 : W11 m ρ c (Proc.devRef .tc main_v91) = val_main_v117 (F := Ideal) (m ((c.tc : Thread nD τ).loc main_arg11)) := by
  show StableHlo.after hostOps4 (W10 m ρ c) _ = _
  after_results_simp
  rw [arg11_at10 m ρ c]
  rfl
theorem S11_v93 : W11 m ρ c (Proc.devRef .tc main_v93) = val_main_v119 (F := Ideal) (m ((c.tc : Thread nD τ).loc main_arg12)) := by
  show StableHlo.after hostOps4 (W10 m ρ c) _ = _
  after_results_simp
  rw [arg12_at10 m ρ c]
  rfl
theorem S11_v95 : W11 m ρ c (Proc.devRef .tc main_v95) = val_main_v121 (F := Ideal) (m ((c.tc : Thread nD τ).loc main_arg13)) := by
  show StableHlo.after hostOps4 (W10 m ρ c) _ = _
  after_results_simp
  rw [arg13_at10 m ρ c]
  rfl

end Cert.KernelIdeal.Bridge

end
-- ==== Proof.Layer3.lean ====
/-
  Layer 3 of the graph network on the kernel side, boundary by boundary.

  The layer is: a linear region (input times weights), a host stretch (the edge aggregation and the batch-norm
  parameters laid out as one-row arrays), a batch-norm region, and a host stretch that cuts the next layer's
  parameters out of the stacked argument arrays (for the last layer: the pooling and the output layer). Each buffer the kernel side computes is shown equal to the value the
  reference computes for the corresponding operation, as a function of the argument arrays.
-/
import proofs.«129210_j46737834115716_2_alg».proof.Proof.LinRegion
import proofs.«129210_j46737834115716_2_alg».proof.Proof.BnRegion
import proofs.«129210_j46737834115716_2_alg».proof.Proof.Persist
import proofs.«129210_j46737834115716_2_alg».proof.Proof.Layer2
import Idealize.ShloMosaic.Lib.StableHlo.Run
import Idealize.ShloMosaic.Lib.ValueLayout

set_option maxRecDepth 65536

noncomputable section

namespace Cert.KernelIdeal.Bridge

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-- The previous layer's output, read when the linear region is entered. -/
theorem v87_at11 : W11 m ρ c (Proc.devRef .tc main_v87) = val_main_v113 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) :=
  (v87_from11 m ρ c).trans (R10_v87 m ρ c)

/-- The linear region's output array is the reference's product of the layer's input with the layer's weights. -/
theorem R12_v96 : W12 m ρ c (Proc.devRef .tc main_v96) = val_main_v122 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) := by
  refine (W12_arr m ρ c 2).trans ?_
  rw [lin_final4 (V11 m ρ) c]
  show Host.dotGeneral (F := Ideal) _ none (W11 m ρ c (Proc.devRef .tc main_v87)) (W11 m ρ c (Proc.devRef .tc main_arg8)) = _
  rw [v87_at11 m ρ c, arg8_at11 m ρ c]
  rfl
theorem v3_at12 : W12 m ρ c (Proc.devRef .tc main_v3) = val_main_v3 (F := Ideal) (m ((c.tc : Thread nD τ).loc main_arg1)) := (v3_from12 m ρ c).trans (S3_v3 m ρ c)
theorem v6_at12 : W12 m ρ c (Proc.devRef .tc main_v6) = val_main_v6 (F := Ideal) (m ((c.tc : Thread nD τ).loc main_arg1)) := (v6_from12 m ρ c).trans (S3_v6 m ρ c)
theorem v31_at12 : W12 m ρ c (Proc.devRef .tc main_v31) = val_main_v31 (F := Ideal) (m ((c.tc : Thread nD τ).loc main_arg1)) (m ((c.tc : Thread nD τ).loc main_arg2)) := (v31_from12 m ρ c).trans (S3_v31 m ρ c)
theorem v89_at12 : W12 m ρ c (Proc.devRef .tc main_v89) = val_main_v115 (F := Ideal) (m ((c.tc : Thread nD τ).loc main_arg10)) := (v89_from12 m ρ c).trans (S11_v89 m ρ c)
theorem v91_at12 : W12 m ρ c (Proc.devRef .tc main_v91) = val_main_v117 (F := Ideal) (m ((c.tc : Thread nD τ).loc main_arg11)) := (v91_from12 m ρ c).trans (S11_v91 m ρ c)
theorem v93_at12 : W12 m ρ c (Proc.devRef .tc main_v93) = val_main_v119 (F := Ideal) (m ((c.tc : Thread nD τ).loc main_arg12)) := (v93_from12 m ρ c).trans (S11_v93 m ρ c)
theorem v95_at12 : W12 m ρ c (Proc.devRef .tc main_v95) = val_main_v121 (F := Ideal) (m ((c.tc : Thread nD τ).loc main_arg13)) := (v95_from12 m ρ c).trans (S11_v95 m ρ c)

/-- The aggregation over the edges (gather by source, scale by the edge norm, scatter-add by destination) of the
    linear region's output is the reference's, the same host operations on equal operands. -/
theorem S13_v109 : W13 m ρ c (Proc.devRef .tc main_v109) = val_main_v135 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) := by
  show StableHlo.after hostOps5 (W12 m ρ c) _ = _
  after_results_simp
  rw [v3_at12 m ρ c, v6_at12 m ρ c, v31_at12 m ρ c, R12_v96 m ρ c]
  rfl
theorem S13_v110 (q : Fin 128) : (W13 m ρ c (Proc.devRef .tc main_v110) : S1x128.Idx → Ideal .f32) (ix2 0 q) = ((m ((c.tc : Thread nD τ).loc main_arg9)) : Cert.ReferenceIdeal.S128.Idx → Ideal .f32) (ix1 q) := by
  show (StableHlo.after hostOps5 (W12 m ρ c) (Proc.devRef .tc main_v110) : S1x128.Idx → Ideal .f32) (ix2 0 q) = _
  after_results_simp
  rw [arg9_at12 m ρ c]
  exact shapeCast_a_1a_apply _ _ 0 q
theorem S13_v111 (q : Fin 128) : (W13 m ρ c (Proc.devRef .tc main_v111) : S1x128.Idx → Ideal .f32) (ix2 0 q) = ((val_main_v115 (F := Ideal) (m ((c.tc : Thread nD τ).loc main_arg10))) : Cert.ReferenceIdeal.S128.Idx → Ideal .f32) (ix1 q) := by
  show (StableHlo.after hostOps5 (W12 m ρ c) (Proc.devRef .tc main_v111) : S1x128.Idx → Ideal .f32) (ix2 0 q) = _
  after_results_simp
  rw [v89_at12 m ρ c]
  exact shapeCast_a_1a_apply _ _ 0 q
theorem S13_v112 (q : Fin 128) : (W13 m ρ c (Proc.devRef .tc main_v112) : S1x128.Idx → Ideal .f32) (ix2 0 q) = ((val_main_v117 (F := Ideal) (m ((c.tc : Thread nD τ).loc main_arg11))) : Cert.ReferenceIdeal.S128.Idx → Ideal .f32) (ix1 q) := by
  show (StableHlo.after hostOps5 (W12 m ρ c) (Proc.devRef .tc main_v112) : S1x128.Idx → Ideal .f32) (ix2 0 q) = _
  after_results_simp
  rw [v91_at12 m ρ c]
  exact shapeCast_a_1a_apply _ _ 0 q
theorem S13_v113 (q : Fin 128) : (W13 m ρ c (Proc.devRef .tc main_v113) : S1x128.Idx → Ideal .f32) (ix2 0 q) = ((val_main_v119 (F := Ideal) (m ((c.tc : Thread nD τ).loc main_arg12))) : Cert.ReferenceIdeal.S128.Idx → Ideal .f32) (ix1 q) := by
  show (StableHlo.after hostOps5 (W12 m ρ c) (Proc.devRef .tc main_v113) : S1x128.Idx → Ideal .f32) (ix2 0 q) = _
  after_results_simp
  rw [v93_at12 m ρ c]
  exact shapeCast_a_1a_apply _ _ 0 q
theorem S13_v114 (q : Fin 128) : (W13 m ρ c (Proc.devRef .tc main_v114) : S1x128.Idx → Ideal .f32) (ix2 0 q) = ((val_main_v121 (F := Ideal) (m ((c.tc : Thread nD τ).loc main_arg13))) : Cert.ReferenceIdeal.S128.Idx → Ideal .f32) (ix1 q) := by
  show (StableHlo.after hostOps5 (W12 m ρ c) (Proc.devRef .tc main_v114) : S1x128.Idx → Ideal .f32) (ix2 0 q) = _
  after_results_simp
  rw [v95_at12 m ρ c]
  exact shapeCast_a_1a_apply _ _ 0 q

/-- The batch-norm region's output array is the reference's bias, normalisation and rectifier of the aggregate. -/
theorem R14_v115 : W14 m ρ c (Proc.devRef .tc main_v115) = val_main_v154 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W14_arr m ρ c 6).trans ?_
  rw [bn_final5 (V13 m ρ) c (m ((c.tc : Thread nD τ).loc main_arg9)) (val_main_v115 (F := Ideal) (m ((c.tc : Thread nD τ).loc main_arg10))) (val_main_v117 (F := Ideal) (m ((c.tc : Thread nD τ).loc main_arg11))) (val_main_v119 (F := Ideal) (m ((c.tc : Thread nD τ).loc main_arg12))) (val_main_v121 (F := Ideal) (m ((c.tc : Thread nD τ).loc main_arg13)))
    (S13_v110 m ρ c) (S13_v111 m ρ c) (S13_v112 m ρ c) (S13_v113 m ρ c) (S13_v114 m ρ c), refBn_v154]
  show refBn (W13 m ρ c (Proc.devRef .tc main_v109)) _ _ _ _ _ = _
  rw [S13_v109 m ρ c]

/-- The program's result: the mean over each graph of the last layer's output (a scatter-add by graph id divided by
    the graph's node count, at least one), times the output weights, plus the output bias: the reference's host
    operations on equal operands. -/
theorem S15_v131 : W15 m ρ c (Proc.devRef .tc main_v131) = val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show StableHlo.after hostOps6 (W14 m ρ c) _ = _
  after_results_simp
  rw [arg3_at14 m ρ c, arg14_at14 m ρ c, arg15_at14 m ρ c, R14_v115 m ρ c]
  rfl

end Cert.KernelIdeal.Bridge

end
-- ==== Proof.lean ====
/-
  A three-layer graph convolution network with mean pooling, tiled, against its plain reference.

  Both programs compute, from the node features, the edge list, the edge weights, the graph id of every node and the
  network's parameters: the symmetric normalisation of the edges (with self-loops of weight one appended); three layers,
  each a linear map of the node features, an aggregation over the edges (gather the source rows, scale by the edge's
  normalisation, scatter-add into the destination rows), a bias, a batch normalisation with running statistics and a
  rectifier; the mean of the node features over each graph; and a final linear map with bias. The reference does all of
  it with host operations. The kernel does the linear maps and the bias / normalisation / rectifier chains in tiled
  regions — blocks of 5000 rows for a linear map, the weights resident; blocks of 2000 rows for a normalisation, the
  five parameter rows resident — and everything else with the same host operations, in the same order, as the reference.

  On the extended reals a change of float format is the identity, a block product accumulated into zero is the host's
  product restricted to the block's rows, and the tiled normalisation is, entry by entry, the host's chain in the same
  association; so the two programs compute the same function and no law that needs finiteness is used. The proof follows
  the kernel's run boundary by boundary (Proof/Stage3, Proof/Layer1 … Layer3), reading each region's output array as a
  whole-array function of its input arrays (Proof/LinRegion, Proof/BnRegion), and ends with the kernel's result buffer
  at the reference's composed value of the arguments.

  The frames of the two kernel programs are the generated ones; the reference's frame is its generated run with the
  result dropped; the idealization ledger is empty.
-/
import proofs.«129210_j46737834115716_2_alg».proof.Defs
import proofs.«129210_j46737834115716_2_alg».proof.Proof.Gen.Kernel
import proofs.«129210_j46737834115716_2_alg».proof.Proof.Gen.Kernel.Skeleton
import proofs.«129210_j46737834115716_2_alg».proof.Proof.Gen.Kernel.Launch
import proofs.«129210_j46737834115716_2_alg».proof.Proof.Gen.Kernel.Points
import proofs.«129210_j46737834115716_2_alg».proof.Proof.Gen.Kernel.Frame
import proofs.«129210_j46737834115716_2_alg».proof.Proof.Gen.KernelIdeal
import proofs.«129210_j46737834115716_2_alg».proof.Proof.Gen.KernelIdeal.Skeleton
import proofs.«129210_j46737834115716_2_alg».proof.Proof.Gen.KernelIdeal.Launch
import proofs.«129210_j46737834115716_2_alg».proof.Proof.Gen.KernelIdeal.Points
import proofs.«129210_j46737834115716_2_alg».proof.Proof.Gen.KernelIdeal.Frame
import proofs.«129210_j46737834115716_2_alg».proof.Proof.Gen.ReferenceIdeal
import proofs.«129210_j46737834115716_2_alg».proof.Proof.Gen.ReferenceIdeal.Run
import proofs.«129210_j46737834115716_2_alg».proof.Proof.Gen.ReferenceIdeal.Read
import proofs.«129210_j46737834115716_2_alg».proof.Proof.Gen.Pre_finite_inputs
import proofs.«129210_j46737834115716_2_alg».proof.Proof.RunResult
import proofs.«129210_j46737834115716_2_alg».proof.Proof.Layer3
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result buffer ends at the last boundary valuation's
    contents, which is the reference's composed value of the kernel's arguments; the reference's ends at the same
    composed value of its own arguments, which are the kernel's. -/
theorem algebraic : Cert.algebraic_KernelIdeal_ReferenceIdeal := by
  intro m ρ m' ρ' _ hagree
  refine ⟨fun c => Cert.KernelIdeal.Gen.W15 m ρ c (Proc.devRef .tc Cert.KernelIdeal.main_v131),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v170_eq, h0, h1, h2, h3, h4, h5, h6, h7, h8, h9, h10, h11, h12, h13, h14, h15]
  exact (Cert.KernelIdeal.Bridge.S15_v131 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
